-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024 : Shape := ⟨1, ![1024]⟩
abbrev S1024x32 : Shape := ⟨2, ![1024, 32]⟩
abbrev S1x32x1024 : Shape := ⟨3, ![1, 32, 1024]⟩
abbrev S2x32x1024 : Shape := ⟨3, ![2, 32, 1024]⟩
abbrev S3x32x1024 : Shape := ⟨3, ![3, 32, 1024]⟩
abbrev S32x32 : Shape := ⟨2, ![32, 32]⟩
abbrev S32x1024 : Shape := ⟨2, ![32, 1024]⟩
abbrev S32x32768 : Shape := ⟨2, ![32, 32768]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_
  bcast_S_S1x32x1024 : S_.BroadcastsInDim S1x32x1024 (![] : Fin 0 → Fin S1x32x1024.rank)
  reducesTo_S1x32x1024_S_d0_1_2 : S1x32x1024.ReducesTo [0, 1, 2] S_
  bcast_S_S2x32x1024 : S_.BroadcastsInDim S2x32x1024 (![] : Fin 0 → Fin S2x32x1024.rank)
  reducesTo_S2x32x1024_S_d0_1_2 : S2x32x1024.ReducesTo [0, 1, 2] S_
  bcast_S_S3x32x1024 : S_.BroadcastsInDim S3x32x1024 (![] : Fin 0 → Fin S3x32x1024.rank)
  reducesTo_S3x32x1024_S_d0_1_2 : S3x32x1024.ReducesTo [0, 1, 2] S_
  bcast_S_S32x32 : S_.BroadcastsInDim S32x32 (![] : Fin 0 → Fin S32x32.rank)
  reducesTo_S32x32_S_d0_1 : S32x32.ReducesTo [0, 1] S_
  bcast_S_S32x1024 : S_.BroadcastsInDim S32x1024 (![] : Fin 0 → Fin S32x1024.rank)
  reducesTo_S32x1024_S_d0_1 : S32x1024.ReducesTo [0, 1] S_
  bcast_S_S32x32768 : S_.BroadcastsInDim S32x32768 (![] : Fin 0 → Fin S32x32768.rank)
  reducesTo_S32x32768_S_d0_1 : S32x32768.ReducesTo [0, 1] S_

variable [Facts]

def fn_part3 {F : FTy → Type} [FloatOps F] (main_v48 : IVec S_ 1) (main_v49 : FVec F S32x32768 .f32) (main_v50 : FVec F S32x32768 .f32) : IVec S_ 1 :=
  let main_v51 : IVec S32x32768 1 := cmpf .olt main_v49 main_v50
  let main_c_19 : IVec S_ 1 := constantI S_ 1 1#1
  let main_v52 : IVec S_ 1 := (fun x v => Host.reduce IntOp.andi x v reducesTo_S32x32768_S_d0_1 h_S_) main_v51 main_c_19
  let main_v53 : IVec S_ 1 := andi main_v48 main_v52
  main_v53

def fn_part2 {F : FTy → Type} [FloatOps F] (main_arg7 : FVec F S3x32x1024 .f32) (main_arg8 : FVec F S32x32 .f32) (main_arg9 : FVec F S32x1024 .f32) (main_arg10 : FVec F S32x32768 .f32) (main_v33 : IVec S_ 1) : IVec S_ 1 :=
  let main_v34 : FVec F S3x32x1024 .f32 := Host.absf main_arg7
  let main_cst_12 : FVec F S_ .f32 := constant S_ .f32 0x7F800000#32
  let main_v35 : FVec F S3x32x1024 .f32 := broadcastInDim S3x32x1024 ![] bcast_S_S3x32x1024 main_cst_12
  let main_v36 : IVec S3x32x1024 1 := cmpf .olt main_v34 main_v35
  let main_c_13 : IVec S_ 1 := constantI S_ 1 1#1
  let main_v37 : IVec S_ 1 := (fun x v => Host.reduce IntOp.andi x v reducesTo_S3x32x1024_S_d0_1_2 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x1024 .f32 := Host.absf main_arg9
  let main_cst_16 : FVec F S_ .f32 := constant S_ .f32 0x7F800000#32
  let main_v45 : FVec F S32x1024 .f32 := broadcastInDim S32x1024 ![] bcast_S_S32x1024 main_cst_16
  let main_v46 : IVec S32x1024 1 := cmpf .olt main_v44 main_v45
  let main_c_17 : IVec S_ 1 := constantI S_ 1 1#1
  let main_v47 : IVec S_ 1 := (fun x v => Host.reduce IntOp.andi x v reducesTo_S32x1024_S_d0_1 h_S_) main_v46 main_c_17
  let main_v48 : IVec S_ 1 := andi main_v43 main_v47
  let main_v49 : FVec F S32x32768 .f32 := Host.absf main_arg10
  let main_cst_18 : FVec F S_ .f32 := constant S_ .f32 0x7F800000#32
  let main_v50 : FVec F S32x32768 .f32 := broadcastInDim S32x32768 ![] bcast_S_S32x32768 main_cst_18
  fn_part3 (F := F) main_v48 main_v49 main_v50

def fn_part1 {F : FTy → Type} [FloatOps F] (main_arg4 : FVec F S1024x32 .f32) (main_arg5 : FVec F S1x32x1024 .f32) (main_arg6 : FVec F S2x32x1024 .f32) (main_arg7 : FVec F S3x32x1024 .f32) (main_arg8 : FVec F S32x32 .f32) (main_arg9 : FVec F S32x1024 .f32) (main_arg10 : FVec F S32x32768 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S1024x32 .f32 := Host.absf main_arg4
  let main_cst_6 : FVec F S_ .f32 := constant S_ .f32 0x7F800000#32
  let main_v20 : FVec F S1024x32 .f32 := broadcastInDim S1024x32 ![] bcast_S_S1024x32 main_cst_6
  let main_v21 : IVec S1024x32 1 := cmpf .olt main_v19 main_v20
  let main_c_7 : IVec S_ 1 := constantI S_ 1 1#1
  let main_v22 : IVec S_ 1 := (fun x v => Host.reduce IntOp.andi x v reducesTo_S1024x32_S_d0_1 h_S_) main_v21 main_c_7
  let main_v23 : IVec S_ 1 := andi main_v18 main_v22
  let main_v24 : FVec F S1x32x1024 .f32 := Host.absf main_arg5
  let main_cst_8 : FVec F S_ .f32 := constant S_ .f32 0x7F800000#32
  let main_v25 : FVec F S1x32x1024 .f32 := broadcastInDim S1x32x1024 ![] bcast_S_S1x32x1024 main_cst_8
  let main_v26 : IVec S1x32x1024 1 := cmpf .olt main_v24 main_v25
  let main_c_9 : IVec S_ 1 := constantI S_ 1 1#1
  let main_v27 : IVec S_ 1 := (fun x v => Host.reduce IntOp.andi x v reducesTo_S1x32x1024_S_d0_1_2 h_S_) main_v26 main_c_9
  let main_v28 : IVec S_ 1 := andi main_v23 main_v27
  let main_v29 : FVec F S2x32x1024 .f32 := Host.absf main_arg6
  let main_cst_10 : FVec F S_ .f32 := constant S_ .f32 0x7F800000#32
  let main_v30 : FVec F S2x32x1024 .f32 := broadcastInDim S2x32x1024 ![] bcast_S_S2x32x1024 main_cst_10
  let main_v31 : IVec S2x32x1024 1 := cmpf .olt main_v29 main_v30
  let main_c_11 : IVec S_ 1 := constantI S_ 1 1#1
  let main_v32 : IVec S_ 1 := (fun x v => Host.reduce IntOp.andi x v reducesTo_S2x32x1024_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S1024 .f32) (main_arg2 : FVec F S1024x32 .f32) (main_arg3 : FVec F S1024x32 .f32) (main_arg4 : FVec F S1024x32 .f32) (main_arg5 : FVec F S1x32x1024 .f32) (main_arg6 : FVec F S2x32x1024 .f32) (main_arg7 : FVec F S3x32x1024 .f32) (main_arg8 : FVec F S32x32 .f32) (main_arg9 : FVec F S32x1024 .f32) (main_arg10 : FVec F S32x32768 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x32 .f32 := Host.absf main_arg2
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024 : Shape := ⟨1, ![1024]⟩
abbrev S1024x32 : Shape := ⟨2, ![1024, 32]⟩
abbrev S1x32x1024 : Shape := ⟨3, ![1, 32, 1024]⟩
abbrev S2x32x1024 : Shape := ⟨3, ![2, 32, 1024]⟩
abbrev S3x32x1024 : Shape := ⟨3, ![3, 32, 1024]⟩
abbrev S32x32 : Shape := ⟨2, ![32, 32]⟩
abbrev S32x1024 : Shape := ⟨2, ![32, 1024]⟩
abbrev S32x32768 : Shape := ⟨2, ![32, 32768]⟩
abbrev S1x1024 : Shape := ⟨2, ![1, 1024]⟩
abbrev S192x1024 : Shape := ⟨2, ![192, 1024]⟩
abbrev S1024x96 : Shape := ⟨2, ![1024, 96]⟩
abbrev S1024x1024 : Shape := ⟨2, ![1024, 1024]⟩
abbrev S256x1024 : Shape := ⟨2, ![256, 1024]⟩
abbrev S256x192 : Shape := ⟨2, ![256, 192]⟩
abbrev S256x32 : Shape := ⟨2, ![256, 32]⟩
abbrev S256x32x1 : Shape := ⟨3, ![256, 32, 1]⟩
abbrev S256x1x32 : Shape := ⟨3, ![256, 1, 32]⟩
abbrev S256x32x32 : Shape := ⟨3, ![256, 32, 32]⟩
abbrev S256x96 : Shape := ⟨2, ![256, 96]⟩

abbrev nBuf : Space → Nat
  | .hbm => 32
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x32, .f32⟩
  | .hbm, ⟨3, _⟩ => ⟨S1024x32, .f32⟩
  | .hbm, ⟨4, _⟩ => ⟨S1024x32, .f32⟩
  | .hbm, ⟨5, _⟩ => ⟨S1x32x1024, .f32⟩
  | .hbm, ⟨6, _⟩ => ⟨S2x32x1024, .f32⟩
  | .hbm, ⟨7, _⟩ => ⟨S3x32x1024, .f32⟩
  | .hbm, ⟨8, _⟩ => ⟨S32x32, .f32⟩
  | .hbm, ⟨9, _⟩ => ⟨S32x1024, .f32⟩
  | .hbm, ⟨10, _⟩ => ⟨S32x32768, .f32⟩
  | .hbm, ⟨11, _⟩ => ⟨S1x1024, .f32⟩
  | .hbm, ⟨12, _⟩ => ⟨S32x1024, .f32⟩
  | .hbm, ⟨13, _⟩ => ⟨S1x32x1024, .f32⟩
  | .hbm, ⟨14, _⟩ => ⟨S32x1024, .f32⟩
  | .hbm, ⟨15, _⟩ => ⟨S1x32x1024, .f32⟩
  | .hbm, ⟨16, _⟩ => ⟨S32x1024, .f32⟩
  | .hbm, ⟨17, _⟩ => ⟨S1x32x1024, .f32⟩
  | .hbm, ⟨18, _⟩ => ⟨S32x1024, .f32⟩
  | .hbm, ⟨19, _⟩ => ⟨S1x32x1024, .f32⟩
  | .hbm, ⟨20, _⟩ => ⟨S32x1024, .f32⟩
  | .hbm, ⟨21, _⟩ => ⟨S1x32x1024, .f32⟩
  | .hbm, ⟨22, _⟩ => ⟨S32x1024, .f32⟩
  | .hbm, ⟨23, _⟩ => ⟨S192x1024, .f32⟩
  | .hbm, ⟨24, _⟩ => ⟨S192x1024, .bf16⟩
  | .hbm, ⟨25, _⟩ => ⟨S1024x96, .f32⟩
  | .hbm, ⟨26, _⟩ => ⟨S1024x96, .bf16⟩
  | .hbm, ⟨27, _⟩ => ⟨S32x32, .bf16⟩
  | .hbm, ⟨28, _⟩ => ⟨S32x1024, .bf16⟩
  | .hbm, ⟨29, _⟩ => ⟨S1024x1024, .f32⟩
  | .hbm, ⟨30, _⟩ => ⟨S1024x1024, .bf16⟩
  | .hbm, ⟨31, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S192x1024, .bf16⟩
  | .local _ .vmem, ⟨4, _⟩ => ⟨S1024x96, .bf16⟩
  | .local _ .vmem, ⟨5, _⟩ => ⟨S32x32, .bf16⟩
  | .local _ .vmem, ⟨6, _⟩ => ⟨S32x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1024_S1x1024 : S1024.ShapeCasts S1x1024
  shapeCasts_S1x32x1024_S32x1024 : S1x32x1024.ShapeCasts S32x1024
  slices_S2x32x1024_S1x32x1024_0_0_0 : S2x32x1024.Slices ![0, 0, 0] S1x32x1024
  slices_S2x32x1024_S1x32x1024_1_0_0 : S2x32x1024.Slices ![1, 0, 0] S1x32x1024
  slices_S3x32x1024_S1x32x1024_0_0_0 : S3x32x1024.Slices ![0, 0, 0] S1x32x1024
  slices_S3x32x1024_S1x32x1024_1_0_0 : S3x32x1024.Slices ![1, 0, 0] S1x32x1024
  slices_S3x32x1024_S1x32x1024_2_0_0 : S3x32x1024.Slices ![2, 0, 0] S1x32x1024
  concatenates_S32x1024_S32x1024_S32x1024_S32x1024_S32x1024_S32x1024_S192x1024_d0 : Shape.Concatenates [S32x1024, S32x1024, S32x1024, S32x1024, S32x1024, S32x1024] S192x1024 0
  bitsLt_bf16_f32 : FTy.bits .bf16 < FTy.bits .f32
  concatenates_S1024x32_S1024x32_S1024x32_S1024x96_d1 : Shape.Concatenates [S1024x32, S1024x32, S1024x32] S1024x96 1
  shapeCasts_S32x32768_S1024x1024 : S32x32768.ShapeCasts S1024x1024
  inb_S256x1024_S256x1024_0_0 : ∀ a, (![0, 0] : Fin 2 → Nat) a + S256x1024.size a ≤ S256x1024.size a
  h_S256x1024 : 0 < S256x1024.numel
  inb_S192x1024_S192x1024_0_0 : ∀ a, (![0, 0] : Fin 2 → Nat) a + S192x1024.size a ≤ S192x1024.size a
  h_S192x1024 : 0 < S192x1024.numel
  shapeCasts_S192x1024_S192x1024 : S192x1024.ShapeCasts S192x1024
  slices_S256x192_o0_0_S256x32 : S256x192.Slices ![0, 0] S256x32
  slices_S256x192_o0_32_S256x32 : S256x192.Slices ![0, 32] S256x32
  slices_S256x192_o0_64_S256x32 : S256x192.Slices ![0, 64] S256x32
  slices_S256x192_o0_96_S256x32 : S256x192.Slices ![0, 96] S256x32
  slices_S256x192_o0_128_S256x32 : S256x192.Slices ![0, 128] S256x32
  slices_S256x192_o0_160_S256x32 : S256x192.Slices ![0, 160] S256x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S256x32_S256x32x1 : S256x32.ShapeCasts S256x32x1
  shapeCasts_S256x32_S256x1x32 : S256x32.ShapeCasts S256x1x32
  broadcasts_S256x32x1_S256x32x32 : S256x32x1.Broadcasts S256x32x32
  broadcasts_S256x1x32_S256x32x32 : S256x1x32.Broadcasts S256x32x32
  shapeCasts_S256x32x32_S256x1024 : S256x32x32.ShapeCasts S256x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x32x32 : S256x1024.ShapeCasts S256x32x32
  reduces_S256x32x32_S256x32 : S256x32x32.Reduces [2] S256x32
  concatenates_S256x32_S256x32_S256x32_S256x96_d1 : Shape.Concatenates [S256x32, S256x32, S256x32] S256x96 1
  inb_S1024x96_S1024x96_0_0 : ∀ a, (![0, 0] : Fin 2 → Nat) a + S1024x96.size a ≤ S1024x96.size a
  h_S1024x96 : 0 < S1024x96.numel
  shapeCasts_S1024x96_S1024x96 : S1024x96.ShapeCasts S1024x96
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S192x1024_S256x192_1_1_0_0_n_n_wf : DotDims.WF S256x1024 S192x1024 S256x192 [1] [1] [0] [0] [] []
  dot_S256x32_S32x32_S256x32_1_1_0_0_n_n_wf : DotDims.WF S256x32 S32x32 S256x32 [1] [1] [0] [0] [] []
  dot_S256x1024_S32x1024_S256x32_1_1_0_0_n_n_wf : DotDims.WF S256x1024 S32x1024 S256x32 [1] [1] [0] [0] [] []
  dot_S256x1024_S1024x1024_S256x1024_1_1_0_0_n_n_wf : DotDims.WF S256x1024 S1024x1024 S256x1024 [1] [1] [0] [0] [] []
  dot_S256x96_S1024x96_S256x1024_1_1_0_0_n_n_wf : DotDims.WF S256x96 S1024x96 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x1024.size a ≤ S192x1024.size a
  hwx0_2 : ∀ i : grid0.Coords, EltTy.bits .bf16 = 32 ∨ (Rect.block (s := S192x1024) S192x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x96.size a ≤ S1024x96.size a
  hwx0_3 : ∀ i : grid0.Coords, EltTy.bits .bf16 = 32 ∨ (Rect.block (s := S1024x96) S1024x96.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .bf16 = 32 ∨ (Rect.block (s := S32x32) S32x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .bf16 = 32 ∨ (Rect.block (s := S32x1024) S32x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S192x1024_S256x192_1_1_0_0_n_n : DotDims S256x1024 S192x1024 S256x192 where
  lhsContracting := [1]
  rhsContracting := [1]
  lhsNonContracting := [0]
  rhsNonContracting := [0]
  lhsBatch := []
  rhsBatch := []
  wf := dot_S256x1024_S192x1024_S256x192_1_1_0_0_n_n_wf
def dot_S256x32_S32x32_S256x32_1_1_0_0_n_n : DotDims S256x32 S32x32 S256x32 where
  lhsContracting := [1]
  rhsContracting := [1]
  lhsNonContracting := [0]
  rhsNonContracting := [0]
  lhsBatch := []
  rhsBatch := []
  wf := dot_S256x32_S32x32_S256x32_1_1_0_0_n_n_wf
def dot_S256x1024_S32x1024_S256x32_1_1_0_0_n_n : DotDims S256x1024 S32x1024 S256x32 where
  lhsContracting := [1]
  rhsContracting := [1]
  lhsNonContracting := [0]
  rhsNonContracting := [0]
  lhsBatch := []
  rhsBatch := []
  wf := dot_S256x1024_S32x1024_S256x32_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x96_S1024x96_S256x1024_1_1_0_0_n_n : DotDims S256x96 S1024x96 S256x1024 where
  lhsContracting := [1]
  rhsContracting := [1]
  lhsNonContracting := [0]
  rhsNonContracting := [0]
  lhsBatch := []
  rhsBatch := []
  wf := dot_S256x96_S1024x96_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S192x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024 : Shape := ⟨1, ![1024]⟩
abbrev S1024x32 : Shape := ⟨2, ![1024, 32]⟩
abbrev S1x32x1024 : Shape := ⟨3, ![1, 32, 1024]⟩
abbrev S2x32x1024 : Shape := ⟨3, ![2, 32, 1024]⟩
abbrev S3x32x1024 : Shape := ⟨3, ![3, 32, 1024]⟩
abbrev S32x32 : Shape := ⟨2, ![32, 32]⟩
abbrev S32x1024 : Shape := ⟨2, ![32, 1024]⟩
abbrev S32x32768 : Shape := ⟨2, ![32, 32768]⟩
abbrev S1x1024 : Shape := ⟨2, ![1, 1024]⟩
abbrev S1x32x4096 : Shape := ⟨3, ![1, 32, 4096]⟩
abbrev S32x4096 : Shape := ⟨2, ![32, 4096]⟩
abbrev S1024x4096 : Shape := ⟨2, ![1024, 4096]⟩
abbrev S2x32x4096 : Shape := ⟨3, ![2, 32, 4096]⟩
abbrev S32x1x4096 : Shape := ⟨3, ![32, 1, 4096]⟩
abbrev S32x32x4096 : Shape := ⟨3, ![32, 32, 4096]⟩
abbrev S3x32x4096 : Shape := ⟨3, ![3, 32, 4096]⟩
abbrev S32x1x1x4096 : Shape := ⟨4, ![32, 1, 1, 4096]⟩
abbrev S1x32x32x4096 : Shape := ⟨4, ![1, 32, 32, 4096]⟩
abbrev S32x32x32x4096 : Shape := ⟨4, ![32, 32, 32, 4096]⟩
abbrev S32768x4096 : Shape := ⟨2, ![32768, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x32, .f32⟩
  | .hbm, ⟨3, _⟩ => ⟨S1024x32, .f32⟩
  | .hbm, ⟨4, _⟩ => ⟨S1024x32, .f32⟩
  | .hbm, ⟨5, _⟩ => ⟨S1x32x1024, .f32⟩
  | .hbm, ⟨6, _⟩ => ⟨S2x32x1024, .f32⟩
  | .hbm, ⟨7, _⟩ => ⟨S3x32x1024, .f32⟩
  | .hbm, ⟨8, _⟩ => ⟨S32x32, .f32⟩
  | .hbm, ⟨9, _⟩ => ⟨S32x1024, .f32⟩
  | .hbm, ⟨10, _⟩ => ⟨S32x32768, .f32⟩
  | .hbm, ⟨11, _⟩ => ⟨S1x1024, .f32⟩
  | .hbm, ⟨12, _⟩ => ⟨S4096x1024, .f32⟩
  | .hbm, ⟨13, _⟩ => ⟨S1x32x4096, .f32⟩
  | .hbm, ⟨14, _⟩ => ⟨S32x4096, .f32⟩
  | .hbm, ⟨15, _⟩ => ⟨S32x4096, .f32⟩
  | .hbm, ⟨16, _⟩ => ⟨S1024x4096, .f32⟩
  | .hbm, ⟨17, _⟩ => ⟨S4096x1024, .f32⟩
  | .hbm, ⟨18, _⟩ => ⟨S4096x1024, .f32⟩
  | .hbm, ⟨19, _⟩ => ⟨S2x32x4096, .f32⟩
  | .hbm, ⟨20, _⟩ => ⟨S1x32x4096, .f32⟩
  | .hbm, ⟨21, _⟩ => ⟨S32x4096, .f32⟩
  | .hbm, ⟨22, _⟩ => ⟨S1x32x4096, .f32⟩
  | .hbm, ⟨23, _⟩ => ⟨S32x4096, .f32⟩
  | .hbm, ⟨24, _⟩ => ⟨S32x1x4096, .f32⟩
  | .hbm, ⟨25, _⟩ => ⟨S1x32x4096, .f32⟩
  | .hbm, ⟨26, _⟩ => ⟨S32x32x4096, .f32⟩
  | .hbm, ⟨27, _⟩ => ⟨S32x32x4096, .f32⟩
  | .hbm, ⟨28, _⟩ => ⟨S32x32x4096, .f32⟩
  | .hbm, ⟨29, _⟩ => ⟨S1024x4096, .f32⟩
  | .hbm, ⟨30, _⟩ => ⟨S32x4096, .f32⟩
  | .hbm, ⟨31, _⟩ => ⟨S1024x4096, .f32⟩
  | .hbm, ⟨32, _⟩ => ⟨S4096x1024, .f32⟩
  | .hbm, ⟨33, _⟩ => ⟨S4096x1024, .f32⟩
  | .hbm, ⟨34, _⟩ => ⟨S3x32x4096, .f32⟩
  | .hbm, ⟨35, _⟩ => ⟨S1x32x4096, .f32⟩
  | .hbm, ⟨36, _⟩ => ⟨S32x4096, .f32⟩
  | .hbm, ⟨37, _⟩ => ⟨S1x32x4096, .f32⟩
  | .hbm, ⟨38, _⟩ => ⟨S32x4096, .f32⟩
  | .hbm, ⟨39, _⟩ => ⟨S32x1x4096, .f32⟩
  | .hbm, ⟨40, _⟩ => ⟨S1x32x4096, .f32⟩
  | .hbm, ⟨41, _⟩ => ⟨S32x32x4096, .f32⟩
  | .hbm, ⟨42, _⟩ => ⟨S32x32x4096, .f32⟩
  | .hbm, ⟨43, _⟩ => ⟨S32x32x4096, .f32⟩
  | .hbm, ⟨44, _⟩ => ⟨S1x32x4096, .f32⟩
  | .hbm, ⟨45, _⟩ => ⟨S32x4096, .f32⟩
  | .hbm, ⟨46, _⟩ => ⟨S32x1x1x4096, .f32⟩
  | .hbm, ⟨47, _⟩ => ⟨S1x32x32x4096, .f32⟩
  | .hbm, ⟨48, _⟩ => ⟨S32x32x32x4096, .f32⟩
  | .hbm, ⟨49, _⟩ => ⟨S32x32x32x4096, .f32⟩
  | .hbm, ⟨50, _⟩ => ⟨S32x32x32x4096, .f32⟩
  | .hbm, ⟨51, _⟩ => ⟨S32768x4096, .f32⟩
  | .hbm, ⟨52, _⟩ => ⟨S32x4096, .f32⟩
  | .hbm, ⟨53, _⟩ => ⟨S1024x4096, .f32⟩
  | .hbm, ⟨54, _⟩ => ⟨S4096x1024, .f32⟩
  | .hbm, ⟨55, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S1x32x4096_S32x4096 : S1x32x4096.ShapeCasts S32x4096
  transposes_S1024x4096_S4096x1024_1_0 : S1024x4096.Transposes [1, 0] S4096x1024
  slices_S2x32x4096_S1x32x4096_0_0_0 : S2x32x4096.Slices ![0, 0, 0] S1x32x4096
  slices_S2x32x4096_S1x32x4096_1_0_0 : S2x32x4096.Slices ![1, 0, 0] S1x32x4096
  shapeCasts_S32x4096_S32x1x4096 : S32x4096.ShapeCasts S32x1x4096
  bcast_S32x4096_S1x32x4096_1_2 : S32x4096.BroadcastsInDim S1x32x4096 (![1, 2] : Fin 2 → Fin S1x32x4096.rank)
  bcast_S1x32x4096_S32x32x4096_0_1_2 : S1x32x4096.BroadcastsInDim S32x32x4096 (![0, 1, 2] : Fin 3 → Fin S32x32x4096.rank)
  bcast_S32x1x4096_S32x32x4096_0_1_2 : S32x1x4096.BroadcastsInDim S32x32x4096 (![0, 1, 2] : Fin 3 → Fin S32x32x4096.rank)
  shapeCasts_S32x32x4096_S1024x4096 : S32x32x4096.ShapeCasts S1024x4096
  slices_S3x32x4096_S1x32x4096_0_0_0 : S3x32x4096.Slices ![0, 0, 0] S1x32x4096
  slices_S3x32x4096_S1x32x4096_1_0_0 : S3x32x4096.Slices ![1, 0, 0] S1x32x4096
  slices_S3x32x4096_S1x32x4096_2_0_0 : S3x32x4096.Slices ![2, 0, 0] S1x32x4096
  shapeCasts_S32x4096_S32x1x1x4096 : S32x4096.ShapeCasts S32x1x1x4096
  bcast_S32x32x4096_S1x32x32x4096_1_2_3 : S32x32x4096.BroadcastsInDim S1x32x32x4096 (![1, 2, 3] : Fin 3 → Fin S1x32x32x4096.rank)
  bcast_S1x32x32x4096_S32x32x32x4096_0_1_2_3 : S1x32x32x4096.BroadcastsInDim S32x32x32x4096 (![0, 1, 2, 3] : Fin 4 → Fin S32x32x32x4096.rank)
  bcast_S32x1x1x4096_S32x32x32x4096_0_1_2_3 : S32x1x1x4096.BroadcastsInDim S32x32x32x4096 (![0, 1, 2, 3] : Fin 4 → Fin S32x32x32x4096.rank)
  shapeCasts_S32x32x32x4096_S32768x4096 : S32x32x32x4096.ShapeCasts S32768x4096
  dot_S1x32x1024_S4096x1024_S1x32x4096_2_1_01_0_n_n_wf : DotDims.WF S1x32x1024 S4096x1024 S1x32x4096 [2] [1] [0, 1] [0] [] []
  dot_S32x32_S32x4096_S32x4096_1_0_0_1_n_n_wf : DotDims.WF S32x32 S32x4096 S32x4096 [1] [0] [0] [1] [] []
  dot_S1024x32_S32x4096_S1024x4096_1_0_0_1_n_n_wf : DotDims.WF S1024x32 S32x4096 S1024x4096 [1] [0] [0] [1] [] []
  dot_S2x32x1024_S4096x1024_S2x32x4096_2_1_01_0_n_n_wf : DotDims.WF S2x32x1024 S4096x1024 S2x32x4096 [2] [1] [0, 1] [0] [] []
  dot_S32x1024_S1024x4096_S32x4096_1_0_0_1_n_n_wf : DotDims.WF S32x1024 S1024x4096 S32x4096 [1] [0] [0] [1] [] []
  dot_S3x32x1024_S4096x1024_S3x32x4096_2_1_01_0_n_n_wf : DotDims.WF S3x32x1024 S4096x1024 S3x32x4096 [2] [1] [0, 1] [0] [] []
  dot_S32x32768_S32768x4096_S32x4096_1_0_0_1_n_n_wf : DotDims.WF S32x32768 S32768x4096 S32x4096 [1] [0] [0] [1] [] []

variable [Facts₀]

def dot_S1x32x1024_S4096x1024_S1x32x4096_2_1_01_0_n_n : DotDims S1x32x1024 S4096x1024 S1x32x4096 where
  lhsContracting := [2]
  rhsContracting := [1]
  lhsNonContracting := [0, 1]
  rhsNonContracting := [0]
  lhsBatch := []
  rhsBatch := []
  wf := dot_S1x32x1024_S4096x1024_S1x32x4096_2_1_01_0_n_n_wf
def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf
def dot_S1024x32_S32x4096_S1024x4096_1_0_0_1_n_n : DotDims S1024x32 S32x4096 S1024x4096 where
  lhsContracting := [1]
  rhsContracting := [0]
  lhsNonContracting := [0]
  rhsNonContracting := [1]
  lhsBatch := []
  rhsBatch := []
  wf := dot_S1024x32_S32x4096_S1024x4096_1_0_0_1_n_n_wf
def dot_S2x32x1024_S4096x1024_S2x32x4096_2_1_01_0_n_n : DotDims S2x32x1024 S4096x1024 S2x32x4096 where
  lhsContracting := [2]
  rhsContracting := [1]
  lhsNonContracting := [0, 1]
  rhsNonContracting := [0]
  lhsBatch := []
  rhsBatch := []
  wf := dot_S2x32x1024_S4096x1024_S2x32x4096_2_1_01_0_n_n_wf
def dot_S32x1024_S1024x4096_S32x4096_1_0_0_1_n_n : DotDims S32x1024 S1024x4096 S32x4096 where
  lhsContracting := [1]
  rhsContracting := [0]
  lhsNonContracting := [0]
  rhsNonContracting := [1]
  lhsBatch := []
  rhsBatch := []
  wf := dot_S32x1024_S1024x4096_S32x4096_1_0_0_1_n_n_wf
def dot_S3x32x1024_S4096x1024_S3x32x4096_2_1_01_0_n_n : DotDims S3x32x1024 S4096x1024 S3x32x4096 where
  lhsContracting := [2]
  rhsContracting := [1]
  lhsNonContracting := [0, 1]
  rhsNonContracting := [0]
  lhsBatch := []
  rhsBatch := []
  wf := dot_S3x32x1024_S4096x1024_S3x32x4096_2_1_01_0_n_n_wf
def dot_S32x32768_S32768x4096_S32x4096_1_0_0_1_n_n : DotDims S32x32768 S32768x4096 S32x4096 where
  lhsContracting := [1]
  rhsContracting := [0]
  lhsNonContracting := [0]
  rhsNonContracting := [1]
  lhsBatch := []
  rhsBatch := []
  wf := dot_S32x32768_S32768x4096_S32x4096_1_0_0_1_n_n_wf

class Facts : Prop extends Facts₀ where

variable [Facts]
-- ==== Proof.FrameBits.lean ====
/- The frame of the Pallas program: @main is one stretch of host operations and one pipelined region on a static
   grid of 16 points; the body loads seven whole staging buffers, computes, and stores once over the whole output
   buffer. This module states what the region finds in each array (`V`), each window's block at a point (`iblk`),
   what the output buffer holds after the body as a function of the input blocks (`out7`), proves the body's triple,
   and runs @main to the frame: every argument array ends as launched. Generic in the float instance. -/
import proofs.«151261_j26113401160148_2_alg».proof.Proof.Gen.Kernel.Launch
import proofs.«151261_j26113401160148_2_alg».proof.Proof.Gen.Kernel.Skeleton
import proofs.«151261_j26113401160148_2_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents run through the twenty host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the stretch of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is `V`'s and whose body leaves the block in place: unfetched, the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is `V`'s and whose body leaves the block in place: unfetched, the block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is `V`'s and whose body leaves the block in place: unfetched, the block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the library's
    frame post read at the argument arrays — `main_arg0`, window 0's array, by the library's reading of a staged
    input; the other ten, staged by no window, by the post's second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev r0 : Rect S256x1024 := Rect.unit (s := S256x1024) ![0, 0] S256x1024.size inb_S256x1024_S256x1024_0_0
abbrev r1 : Rect S1x1024 := Rect.unit (s := S1x1024) ![0, 0] S1x1024.size inb_S1x1024_S1x1024_0_0
abbrev r2 : Rect S192x1024 := Rect.unit (s := S192x1024) ![0, 0] S192x1024.size inb_S192x1024_S192x1024_0_0
abbrev r3 : Rect S1024x96 := Rect.unit (s := S1024x96) ![0, 0] S1024x96.size inb_S1024x96_S1024x96_0_0
abbrev r4 : Rect S32x32 := Rect.unit (s := S32x32) ![0, 0] S32x32.size inb_S32x32_S32x32_0_0
abbrev r5 : Rect S32x1024 := Rect.unit (s := S32x1024) ![0, 0] S32x1024.size inb_S32x1024_S32x1024_0_0
abbrev r6 : Rect S1024x1024 := Rect.unit (s := S1024x1024) ![0, 0] S1024x1024.size inb_S1024x1024_S1024x1024_0_0

/-! ## What the body leaves in the output window's buffer -/

/-- Window 7's staging buffer after the body, from the input windows' blocks: its one store as a piece over the
    payloads of the body's two parts. -/
def out7 (x0 : Vec F S256x1024 .f32) (x1 : Vec F S1x1024 .f32) (x2 : Vec F S192x1024 .bf16) (x3 : Vec F S1024x96 .bf16) (x4 : Vec F S32x32 .bf16) (x5 : Vec F S32x1024 .bf16) (x6 : Vec F S1024x1024 .bf16) : Vec F S256x1024 .f32 :=
  View.canon [⟨r0, k0_pay1 (k0_pay2 (View.ld x0 r0) (View.ld x2 r2) (View.ld x4 r4) (View.ld x5 r5) (View.ld x6 r6)) (View.ld x3 r3) (View.ld x1 r1)⟩]

/-- The one store is of the whole buffer, so it covers it. -/
theorem cover7 (p0 : Vec F S256x1024 .f32) (y : S256x1024.Idx) :
    ∃ pc ∈ ([⟨r0, p0⟩] : List (View.Piece (Elt F) S256x1024 .f32)), y ∈ pc.1.set :=
  View.cover_of_tiled [⟨r0, p0⟩] S256x1024.size (by rfl) y

/-! ## The body's triple -/

set_option maxHeartbeats 4000000 in
/-- The kernel body on whole staging memrefs, the inputs' at read contents `xW` and the output's at anything, runs to
    the continuation holding the inputs' as they were and the output's at `out7` of the inputs'. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S192x1024 .bf16) (harg3 : arg3.IsWhole) (arg4 : Memref sig .tc .vmem S1024x96 .bf16) (harg4 : arg4.IsWhole) (arg5 : Memref sig .tc .vmem S32x32 .bf16) (harg5 : arg5.IsWhole) (arg6 : Memref sig .tc .vmem S32x1024 .bf16) (harg6 : arg6.IsWhole) (arg7 : Memref sig .tc .vmem S1024x1024 .bf16) (harg7 : arg7.IsWhole) (arg8 : Memref sig .tc .vmem S256x1024 .f32) (harg8 : arg8.IsWhole)
    (x0 : Vec F S256x1024 .f32) (x1 : Vec F S1x1024 .f32) (x2 : Vec F S192x1024 .bf16) (x3 : Vec F S1024x96 .bf16) (x4 : Vec F S32x32 .bf16) (x5 : Vec F S32x1024 .bf16) (x6 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__taylor_kernel i arg1 harg1 arg2 harg2 arg3 harg3 arg4 harg4 arg5 harg5 arg6 harg6 arg7 harg7 arg8 harg8) K := by
  simp only [cc0__taylor_kernel_eq_skeleton]; unfold cc0__taylor_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

/-! ## The pipeline's proof data -/

/-- The proof data of the one pipeline on core `c`: the arrays as the region finds them; after the body at point `t`
    each input's buffer at its block and the output's at `out7` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and every argument array ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.FrameIdeal.lean ====
/- The frame of the Pallas program: @main is one stretch of host operations and one pipelined region on a static
   grid of 16 points; the body loads seven whole staging buffers, computes, and stores once over the whole output
   buffer. This module states what the region finds in each array (`V`), each window's block at a point (`iblk`),
   what the output buffer holds after the body as a function of the input blocks (`out7`), proves the body's triple,
   and runs @main to the frame: every argument array ends as launched. Generic in the float instance. -/
import proofs.«151261_j26113401160148_2_alg».proof.Proof.Gen.KernelIdeal.Launch
import proofs.«151261_j26113401160148_2_alg».proof.Proof.Gen.KernelIdeal.Skeleton
import proofs.«151261_j26113401160148_2_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents run through the twenty host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the stretch of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is `V`'s and whose body leaves the block in place: unfetched, the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is `V`'s and whose body leaves the block in place: unfetched, the block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is `V`'s and whose body leaves the block in place: unfetched, the block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the library's
    frame post read at the argument arrays — `main_arg0`, window 0's array, by the library's reading of a staged
    input; the other ten, staged by no window, by the post's second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev r0 : Rect S256x1024 := Rect.unit (s := S256x1024) ![0, 0] S256x1024.size inb_S256x1024_S256x1024_0_0
abbrev r1 : Rect S1x1024 := Rect.unit (s := S1x1024) ![0, 0] S1x1024.size inb_S1x1024_S1x1024_0_0
abbrev r2 : Rect S192x1024 := Rect.unit (s := S192x1024) ![0, 0] S192x1024.size inb_S192x1024_S192x1024_0_0
abbrev r3 : Rect S1024x96 := Rect.unit (s := S1024x96) ![0, 0] S1024x96.size inb_S1024x96_S1024x96_0_0
abbrev r4 : Rect S32x32 := Rect.unit (s := S32x32) ![0, 0] S32x32.size inb_S32x32_S32x32_0_0
abbrev r5 : Rect S32x1024 := Rect.unit (s := S32x1024) ![0, 0] S32x1024.size inb_S32x1024_S32x1024_0_0
abbrev r6 : Rect S1024x1024 := Rect.unit (s := S1024x1024) ![0, 0] S1024x1024.size inb_S1024x1024_S1024x1024_0_0

/-! ## What the body leaves in the output window's buffer -/

/-- Window 7's staging buffer after the body, from the input windows' blocks: its one store as a piece over the
    payloads of the body's two parts. -/
def out7 (x0 : Vec F S256x1024 .f32) (x1 : Vec F S1x1024 .f32) (x2 : Vec F S192x1024 .bf16) (x3 : Vec F S1024x96 .bf16) (x4 : Vec F S32x32 .bf16) (x5 : Vec F S32x1024 .bf16) (x6 : Vec F S1024x1024 .bf16) : Vec F S256x1024 .f32 :=
  View.canon [⟨r0, k0_pay1 (k0_pay2 (View.ld x0 r0) (View.ld x2 r2) (View.ld x4 r4) (View.ld x5 r5) (View.ld x6 r6)) (View.ld x3 r3) (View.ld x1 r1)⟩]

/-- The one store is of the whole buffer, so it covers it. -/
theorem cover7 (p0 : Vec F S256x1024 .f32) (y : S256x1024.Idx) :
    ∃ pc ∈ ([⟨r0, p0⟩] : List (View.Piece (Elt F) S256x1024 .f32)), y ∈ pc.1.set :=
  View.cover_of_tiled [⟨r0, p0⟩] S256x1024.size (by rfl) y

/-! ## The body's triple -/

set_option maxHeartbeats 4000000 in
/-- The kernel body on whole staging memrefs, the inputs' at read contents `xW` and the output's at anything, runs to
    the continuation holding the inputs' as they were and the output's at `out7` of the inputs'. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S192x1024 .bf16) (harg3 : arg3.IsWhole) (arg4 : Memref sig .tc .vmem S1024x96 .bf16) (harg4 : arg4.IsWhole) (arg5 : Memref sig .tc .vmem S32x32 .bf16) (harg5 : arg5.IsWhole) (arg6 : Memref sig .tc .vmem S32x1024 .bf16) (harg6 : arg6.IsWhole) (arg7 : Memref sig .tc .vmem S1024x1024 .bf16) (harg7 : arg7.IsWhole) (arg8 : Memref sig .tc .vmem S256x1024 .f32) (harg8 : arg8.IsWhole)
    (x0 : Vec F S256x1024 .f32) (x1 : Vec F S1x1024 .f32) (x2 : Vec F S192x1024 .bf16) (x3 : Vec F S1024x96 .bf16) (x4 : Vec F S32x32 .bf16) (x5 : Vec F S32x1024 .bf16) (x6 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__taylor_kernel i arg1 harg1 arg2 harg2 arg3 harg3 arg4 harg4 arg5 harg5 arg6 harg6 arg7 harg7 arg8 harg8) K := by
  simp only [cc0__taylor_kernel_eq_skeleton]; unfold cc0__taylor_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

/-! ## The pipeline's proof data -/

/-- The proof data of the one pipeline on core `c`: the arrays as the region finds them; after the body at point `t`
    each input's buffer at its block and the output's at `out7` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and every argument array ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.Blocks.lean ====
/-
  From blocks to the array. The grid has 16 points; at point t the body reads rows 256 t … 256 t + 255 of the input
  matrix and the six parameter arrays whole, and writes rows 256 t … 256 t + 255 of the output. Every row of the output
  lies in exactly one point's block (row b in the block of point b / 256, at row b % 256 of it), so after the run the
  output array is one function of the arrays the region finds: at (b, o), the body's stored value for the block of rows
  b / 256 of the input, read at (b % 256, o).
-/
import proofs.«151261_j26113401160148_2_alg».proof.Proof.FrameIdeal
import Idealize.ShloMosaic.Lib.Pipeline.Value
import Idealize.ShloMosaic.Lib.ValueIdx

set_option maxRecDepth 16384

noncomputable section

namespace Cert.KernelIdeal.Blk

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The whole-array function -/

/-- Rows 256 t … 256 t + 255 of a [4096, 1024] matrix. -/
def Xblk (X : S4096x1024.Idx → EReal) (t : Fin 16) : S256x1024.Idx → EReal := fun y =>
  X (ix2 ⟨t.val * 256 + (y 0).val, by have := idx2_lt0 y; have := t.isLt; omega⟩ ⟨(y 1).val, idx2_lt1 y⟩)

/-- The output array after the run: at (b, o), the body's stored value for the block of rows b / 256, read at
    (b % 256, o). -/
def Gk (c : Dev nD) : S4096x1024.Idx → EReal := fun i =>
  k0_pay1 (F := Ideal)
    (k0_pay2 (F := Ideal) (Xblk (V m c main_arg0) ⟨(i 0).val / 256, by have := idx2_lt0 i; omega⟩) (V m c main_v13)
      (V m c main_v16) (V m c main_v17) (V m c main_v19))
    (V m c main_v15) (V m c main_v0) (ix2 ⟨(i 0).val % 256, Nat.mod_lt _ (by decide)⟩ ⟨(i 1).val, idx2_lt1 i⟩)

/-! ## Where each window's block lies -/

theorem hz : (![0, 0] : Fin 2 → Nat) = fun _ => 0 := funext fun a => by fin_cases a <;> rfl

/-- The index maps over the grid: the input matrix and the output move down one block of rows per point; the six
    parameter arrays stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 1's block is its whole array at every point. -/
theorem iblk1_eq (c : Dev nD) (t : Fin cfg0.N) : (iblk m c 1 t : Vec Ideal S1x1024 .f32) = V m c main_v0 := by
  obtain ⟨-, -, a10, a11, a20, a21, a30, a31, a40, a41, a50, a51, a60, a61, -, -⟩ := idx_facts t
  funext y
  unfold iblk
  rw [View.read_apply]
  show V m c main_v0 _ = V m c main_v0 y
  congr 1
  funext a
  apply Fin.ext
  match a with
  | ⟨0, _⟩ => show win0_1.index t (0 : Fin 2) * 1 + 1 * (y 0).val = (y 0).val; omega
  | ⟨1, _⟩ => show win0_1.index t (1 : Fin 2) * 1024 + 1 * (y 1).val = (y 1).val; omega

/-- Window 2's block is its whole array at every point. -/
theorem iblk2_eq (c : Dev nD) (t : Fin cfg0.N) : (iblk m c 2 t : Vec Ideal S192x1024 .bf16) = V m c main_v13 := by
  obtain ⟨-, -, a10, a11, a20, a21, a30, a31, a40, a41, a50, a51, a60, a61, -, -⟩ := idx_facts t
  funext y
  unfold iblk
  rw [View.read_apply]
  show V m c main_v13 _ = V m c main_v13 y
  congr 1
  funext a
  apply Fin.ext
  match a with
  | ⟨0, _⟩ => show win0_2.index t (0 : Fin 2) * 192 + 1 * (y 0).val = (y 0).val; omega
  | ⟨1, _⟩ => show win0_2.index t (1 : Fin 2) * 1024 + 1 * (y 1).val = (y 1).val; omega

/-- Window 3's block is its whole array at every point. -/
theorem iblk3_eq (c : Dev nD) (t : Fin cfg0.N) : (iblk m c 3 t : Vec Ideal S1024x96 .bf16) = V m c main_v15 := by
  obtain ⟨-, -, a10, a11, a20, a21, a30, a31, a40, a41, a50, a51, a60, a61, -, -⟩ := idx_facts t
  funext y
  unfold iblk
  rw [View.read_apply]
  show V m c main_v15 _ = V m c main_v15 y
  congr 1
  funext a
  apply Fin.ext
  match a with
  | ⟨0, _⟩ => show win0_3.index t (0 : Fin 2) * 1024 + 1 * (y 0).val = (y 0).val; omega
  | ⟨1, _⟩ => show win0_3.index t (1 : Fin 2) * 96 + 1 * (y 1).val = (y 1).val; omega

/-- Window 4's block is its whole array at every point. -/
theorem iblk4_eq (c : Dev nD) (t : Fin cfg0.N) : (iblk m c 4 t : Vec Ideal S32x32 .bf16) = V m c main_v16 := by
  obtain ⟨-, -, a10, a11, a20, a21, a30, a31, a40, a41, a50, a51, a60, a61, -, -⟩ := idx_facts t
  funext y
  unfold iblk
  rw [View.read_apply]
  show V m c main_v16 _ = V m c main_v16 y
  congr 1
  funext a
  apply Fin.ext
  match a with
  | ⟨0, _⟩ => show win0_4.index t (0 : Fin 2) * 32 + 1 * (y 0).val = (y 0).val; omega
  | ⟨1, _⟩ => show win0_4.index t (1 : Fin 2) * 32 + 1 * (y 1).val = (y 1).val; omega

/-- Window 5's block is its whole array at every point. -/
theorem iblk5_eq (c : Dev nD) (t : Fin cfg0.N) : (iblk m c 5 t : Vec Ideal S32x1024 .bf16) = V m c main_v17 := by
  obtain ⟨-, -, a10, a11, a20, a21, a30, a31, a40, a41, a50, a51, a60, a61, -, -⟩ := idx_facts t
  funext y
  unfold iblk
  rw [View.read_apply]
  show V m c main_v17 _ = V m c main_v17 y
  congr 1
  funext a
  apply Fin.ext
  match a with
  | ⟨0, _⟩ => show win0_5.index t (0 : Fin 2) * 32 + 1 * (y 0).val = (y 0).val; omega
  | ⟨1, _⟩ => show win0_5.index t (1 : Fin 2) * 1024 + 1 * (y 1).val = (y 1).val; omega

/-- Window 6's block is its whole array at every point. -/
theorem iblk6_eq (c : Dev nD) (t : Fin cfg0.N) : (iblk m c 6 t : Vec Ideal S1024x1024 .bf16) = V m c main_v19 := by
  obtain ⟨-, -, a10, a11, a20, a21, a30, a31, a40, a41, a50, a51, a60, a61, -, -⟩ := idx_facts t
  funext y
  unfold iblk
  rw [View.read_apply]
  show V m c main_v19 _ = V m c main_v19 y
  congr 1
  funext a
  apply Fin.ext
  match a with
  | ⟨0, _⟩ => show win0_6.index t (0 : Fin 2) * 1024 + 1 * (y 0).val = (y 0).val; omega
  | ⟨1, _⟩ => show win0_6.index t (1 : Fin 2) * 1024 + 1 * (y 1).val = (y 1).val; omega

/-- Window 0's block at point t is rows 256 t … 256 t + 255 of the input matrix. -/
theorem iblk0_eq (c : Dev nD) (t : Fin cfg0.N) (t' : Fin 16) (ht : t'.val = t.val) :
    (iblk m c 0 t : Vec Ideal S256x1024 .f32) = Xblk (V m c main_arg0) t' := by
  obtain ⟨a00, a01, -⟩ := idx_facts t
  funext y
  unfold iblk Xblk
  rw [View.read_apply]
  show V m c main_arg0 _ = V m c main_arg0 _
  congr 1
  funext a
  apply Fin.ext
  match a with
  | ⟨0, _⟩ => show win0_0.index t (0 : Fin 2) * 256 + 1 * (y 0).val = t'.val * 256 + (y 0).val; rw [a00, ht]; omega
  | ⟨1, _⟩ => show win0_0.index t (1 : Fin 2) * 1024 + 1 * (y 1).val = (y 1).val; omega

/-! ## What a point writes back -/

/-- The body's stored value depends on its input block and on the read position only through what they are. -/
theorem pay_congr (B B' : Vec Ideal S256x1024 .f32) (v0 : Vec Ideal S1x1024 .f32) (v13 : Vec Ideal S192x1024 .bf16)
    (v15 : Vec Ideal S1024x96 .bf16) (v16 : Vec Ideal S32x32 .bf16) (v17 : Vec Ideal S32x1024 .bf16)
    (v19 : Vec Ideal S1024x1024 .bf16) (j j' : S256x1024.Idx) (hB : B = B') (hj : j = j') :
    k0_pay1 (F := Ideal) (k0_pay2 (F := Ideal) B v13 v16 v17 v19) v15 v0 j
      = k0_pay1 (F := Ideal) (k0_pay2 (F := Ideal) B' v13 v16 v17 v19) v15 v0 j' := by
  subst hB hj; rfl

/-- The stored value of point t at position j of its block is the whole-array function at row 256 t + j₀, column j₁. -/
theorem blockwise (c : Dev nD) (t : Fin cfg0.N) (j : S256x1024.Idx) (i : S4096x1024.Idx)
    (hi0 : (i 0).val = t.val * 256 + (j 0).val) (hi1 : (i 1).val = (j 1).val) :
    k0_pay1 (F := Ideal)
        (k0_pay2 (F := Ideal) (iblk m c 0 t) (V m c main_v13) (V m c main_v16) (V m c main_v17) (V m c main_v19))
        (V m c main_v15) (V m c main_v0) j = Gk m c i := by
  have hj0 := idx2_lt0 j
  unfold Gk
  exact pay_congr _ _ _ _ _ _ _ _ _ _ (iblk0_eq m c t _ (by show (i 0).val / 256 = t.val; omega)) (by
    funext a
    apply Fin.ext
    match a with
    | ⟨0, _⟩ => show (j 0).val = (i 0).val % 256; omega
    | ⟨1, _⟩ => show (j 1).val = (i 1).val; omega)

/-- What point t writes back is its block of the whole-array function. -/
theorem flushed_eq (c : Dev nD) (t : Fin cfg0.N) :
    (dats m 0 c).flushed 7 t = ((cfg0.win 7).blk t).view.read (Elt Ideal) (Gk m c) := by
  obtain ⟨-, -, -, -, -, -, -, -, -, -, -, -, -, -, a70, a71⟩ := idx_facts t
  show (cfg0.win 7).cut (grid0.coords t) ((dats m 0 c).after 7 t) = _
  rw [after0_7]
  unfold out7
  rw [View.canon_unit_zero hz]
  simp only [View.ld_unit_zero (S := S256x1024) hz, View.ld_unit_zero (S := S1x1024) hz,
    View.ld_unit_zero (S := S192x1024) hz, View.ld_unit_zero (S := S1024x96) hz, View.ld_unit_zero (S := S32x32) hz,
    View.ld_unit_zero (S := S32x1024) hz, View.ld_unit_zero (S := S1024x1024) hz]
  rw [iblk1_eq, iblk2_eq, iblk3_eq, iblk4_eq, iblk5_eq, iblk6_eq]
  funext j
  rw [View.read_apply]
  exact blockwise m c t j _
    (by show win0_7.index t (0 : Fin 2) * 256 + 1 * (j 0).val = t.val * 256 + (j 0).val; rw [a70]; omega)
    (by show win0_7.index t (1 : Fin 2) * 1024 + 1 * (j 1).val = (j 1).val; rw [a71]; omega)

/-! ## The cover, and the array after the run -/

/-- Row b of the output lies in the block of point b / 256. -/
theorem cover (i : S4096x1024.Idx) :
    ∃ t : Fin cfg0.N, (cfg0.win 7).flush t = true ∧ i ∈ ((cfg0.win 7).blk t).view.set := by
  have hN : cfg0.N = 16 := N_0
  have hi0 := idx2_lt0 i
  have hi1 := idx2_lt1 i
  have hlt : (i 0).val / 256 < cfg0.N := by rw [hN]; omega
  obtain ⟨-, -, -, -, -, -, -, -, -, -, -, -, -, -, a70, a71⟩ := idx_facts ⟨(i 0).val / 256, hlt⟩
  refine ⟨⟨(i 0).val / 256, hlt⟩, flush0_7 _, ?_⟩
  show i ∈ ((View.whole main_v20).slice (win0_7.rect ⟨(i 0).val / 256, hlt⟩)).set
  rw [View.set_slice_whole, Rect.mem_set_unit]
  intro a
  match a with
  | ⟨0, _⟩ =>
    show win0_7.index ⟨(i 0).val / 256, hlt⟩ (0 : Fin 2) * 256 ≤ (i 0).val
      ∧ (i 0).val < win0_7.index ⟨(i 0).val / 256, hlt⟩ (0 : Fin 2) * 256 + 256
    rw [a70]
    show (i 0).val / 256 * 256 ≤ (i 0).val ∧ (i 0).val < (i 0).val / 256 * 256 + 256
    omega
  | ⟨1, _⟩ =>
    show win0_7.index ⟨(i 0).val / 256, hlt⟩ (1 : Fin 2) * 1024 ≤ (i 1).val
      ∧ (i 1).val < win0_7.index ⟨(i 0).val / 256, hlt⟩ (1 : Fin 2) * 1024 + 1024
    rw [a71]
    omega

/-- The output array after the run is the whole-array function: every point writes its block of it, and the blocks cover
    the array. -/
theorem final (c : Dev nD) : (dats m 0 c).arrAt 7 cfg0.N = Gk m c :=
  (dats m 0 c).arrAt_eq_of_cover 7 (Gk m c) (fun t _ => flushed_eq m c t) cover

/-! ## The run, read -/

/-- @main runs; the output array ends at the whole-array function and every argument array as launched. -/
theorem value_run : θ_run defs (onTc (τ := τ) (main (F := Ideal))) ⟨m, fun _ => 0, ρ⟩ (fun r => ∀ c : Dev nD,
      r.2.mem ((c.tc : Thread nD τ).loc main_v20) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.Blk

end
-- ==== Proof.LibIxVal.lean ====
/-
  The components of an index built from coordinates, as natural numbers: the form in which arithmetic on
  flattened positions is decided.
-/
import Idealize.ShloMosaic.Lib.ValueIdx

namespace Idealize.ShloMosaic.ValueIdx

variable {n0 n1 n2 n3 : Nat}

theorem ix1_v0 (a : Fin n0) : (ix1 a 0).val = a.val := rfl
theorem ix1_m0 (a : Fin n0) (h) : (ix1 a ⟨0, h⟩).val = a.val := rfl
theorem ix2_v0 (a : Fin n0) (b : Fin n1) : (ix2 a b 0).val = a.val := rfl
theorem ix2_v1 (a : Fin n0) (b : Fin n1) : (ix2 a b 1).val = b.val := rfl
theorem ix2_m0 (a : Fin n0) (b : Fin n1) (h) : (ix2 a b ⟨0, h⟩).val = a.val := rfl
theorem ix2_m1 (a : Fin n0) (b : Fin n1) (h) : (ix2 a b ⟨1, h⟩).val = b.val := rfl
theorem ix3_v0 (a : Fin n0) (b : Fin n1) (c : Fin n2) : (ix3 a b c 0).val = a.val := rfl
theorem ix3_v1 (a : Fin n0) (b : Fin n1) (c : Fin n2) : (ix3 a b c 1).val = b.val := rfl
theorem ix3_v2 (a : Fin n0) (b : Fin n1) (c : Fin n2) : (ix3 a b c 2).val = c.val := rfl
theorem ix3_m0 (a : Fin n0) (b : Fin n1) (c : Fin n2) (h) : (ix3 a b c ⟨0, h⟩).val = a.val := rfl
theorem ix3_m1 (a : Fin n0) (b : Fin n1) (c : Fin n2) (h) : (ix3 a b c ⟨1, h⟩).val = b.val := rfl
theorem ix3_m2 (a : Fin n0) (b : Fin n1) (c : Fin n2) (h) : (ix3 a b c ⟨2, h⟩).val = c.val := rfl
theorem ix4_v0 (a : Fin n0) (b : Fin n1) (c : Fin n2) (d : Fin n3) : (ix4 a b c d 0).val = a.val := rfl
theorem ix4_v1 (a : Fin n0) (b : Fin n1) (c : Fin n2) (d : Fin n3) : (ix4 a b c d 1).val = b.val := rfl
theorem ix4_v2 (a : Fin n0) (b : Fin n1) (c : Fin n2) (d : Fin n3) : (ix4 a b c d 2).val = c.val := rfl
theorem ix4_v3 (a : Fin n0) (b : Fin n1) (c : Fin n2) (d : Fin n3) : (ix4 a b c d 3).val = d.val := rfl
theorem ix4_m0 (a : Fin n0) (b : Fin n1) (c : Fin n2) (d : Fin n3) (h) : (ix4 a b c d ⟨0, h⟩).val = a.val := rfl
theorem ix4_m1 (a : Fin n0) (b : Fin n1) (c : Fin n2) (d : Fin n3) (h) : (ix4 a b c d ⟨1, h⟩).val = b.val := rfl
theorem ix4_m2 (a : Fin n0) (b : Fin n1) (c : Fin n2) (d : Fin n3) (h) : (ix4 a b c d ⟨2, h⟩).val = c.val := rfl
theorem ix4_m3 (a : Fin n0) (b : Fin n1) (c : Fin n2) (d : Fin n3) (h) : (ix4 a b c d ⟨3, h⟩).val = d.val := rfl

/-- Unfold every coordinate-built index to its coordinates, then decide the arithmetic. -/
macro "ix_omega" : tactic => `(tactic| (
  (try dsimp only [ix1, ix2, ix3, ix4]) <;>
  (try simp only [ix1_v0, ix2_v0, ix2_v1, ix3_v0, ix3_v1, ix3_v2, ix4_v0, ix4_v1, ix4_v2, ix4_v3, Fin.val_zero, Fin.val_mk]) <;>
  omega))

/-- Two indices of rank 1 (2, 3, 4) are equal when their components are equal as numbers. -/
macro "ix_ext1" : tactic => `(tactic| (funext ax; match ax with
  | ⟨0, _⟩ => exact Fin.ext (by ix_omega)))
macro "ix_ext2" : tactic => `(tactic| (funext ax; match ax with
  | ⟨0, _⟩ => exact Fin.ext (by ix_omega)
  | ⟨1, _⟩ => exact Fin.ext (by ix_omega)))
macro "ix_ext3" : tactic => `(tactic| (funext ax; match ax with
  | ⟨0, _⟩ => exact Fin.ext (by ix_omega)
  | ⟨1, _⟩ => exact Fin.ext (by ix_omega)
  | ⟨2, _⟩ => exact Fin.ext (by ix_omega)))
macro "ix_ext4" : tactic => `(tactic| (funext ax; match ax with
  | ⟨0, _⟩ => exact Fin.ext (by ix_omega)
  | ⟨1, _⟩ => exact Fin.ext (by ix_omega)
  | ⟨2, _⟩ => exact Fin.ext (by ix_omega)
  | ⟨3, _⟩ => exact Fin.ext (by ix_omega)))

end Idealize.ShloMosaic.ValueIdx
-- ==== Proof.Spec.lean ====
/-
  The mathematics of the certificate, free of any program text.

  For one row `x` of the input matrix and one output column, both programs compute a constant plus three terms,
  one per order of a truncated Tucker expansion: with `z = I · x` the projections of the row,
  order 0 contracts `z` with a core matrix, order 1 contracts the outer product of two projections with a core
  matrix flattened over the pair, order 2 contracts the triple outer product with a core matrix flattened over
  the triple; each result is then contracted with an output factor. The reference forms the full outer products
  and sums over the flattened index; the kernel contracts the order-2 core mode by mode — first over the pair
  of inner modes for every value of the outer one, then over the outer mode — and adds the three orders in one
  contraction of width 96. The two groupings agree by commutativity, associativity and distributivity, which hold
  for real numbers; the extended reals enter only through the coercion, which commutes with finite sums and products.
-/
import Mathlib.Data.EReal.Basic
import Mathlib.Algebra.BigOperators.Fin
import Mathlib.Tactic.Ring
import Mathlib.Tactic.Abel

noncomputable section

namespace Cert.Spec

open Finset

/-! ## Splitting flattened indices -/

/-- The fast coordinate of a flattened pair index `k = a₁ · 32 + a₀`. -/
def lo (k : Fin 1024) : Fin 32 := ⟨k.val % 32, Nat.mod_lt _ (by decide)⟩
/-- The slow coordinate of a flattened pair index. -/
def hi (k : Fin 1024) : Fin 32 := ⟨k.val / 32, by have := k.isLt; omega⟩
/-- The three coordinates of a flattened triple index `k = a₂ · 1024 + a₁ · 32 + a₀`. -/
def c0 (k : Fin 32768) : Fin 32 := ⟨k.val % 32, Nat.mod_lt _ (by decide)⟩
def c1 (k : Fin 32768) : Fin 32 := ⟨k.val / 32 % 32, Nat.mod_lt _ (by decide)⟩
def c2 (k : Fin 32768) : Fin 32 := ⟨k.val / 1024, by have := k.isLt; omega⟩
/-- The triple index with outer coordinate `a` and flattened inner pair `k`. -/
def join (a : Fin 32) (k : Fin 1024) : Fin 32768 := ⟨a.val * 1024 + k.val, by have := a.isLt; have := k.isLt; omega⟩

theorem c0_join (a : Fin 32) (k : Fin 1024) : c0 (join a k) = lo k := Fin.ext (by
  show (a.val * 1024 + k.val) % 32 = k.val % 32; omega)
theorem c1_join (a : Fin 32) (k : Fin 1024) : c1 (join a k) = hi k := Fin.ext (by
  have := k.isLt; show (a.val * 1024 + k.val) / 32 % 32 = k.val / 32; omega)
theorem c2_join (a : Fin 32) (k : Fin 1024) : c2 (join a k) = a := Fin.ext (by
  have := k.isLt; show (a.val * 1024 + k.val) / 1024 = a.val; omega)

/-- A triple index is an outer coordinate and a flattened inner pair. -/
def joinEquiv : Fin 32 × Fin 1024 ≃ Fin 32768 where
  toFun q := join q.1 q.2
  invFun k := (c2 k, ⟨k.val % 1024, Nat.mod_lt _ (by decide)⟩)
  left_inv q := by
    obtain ⟨a, k⟩ := q
    have := k.isLt
    refine Prod.ext (c2_join a k) (Fin.ext ?_)
    show (a.val * 1024 + k.val) % 1024 = k.val
    omega
  right_inv k := Fin.ext (by
    show k.val / 1024 * 1024 + k.val % 1024 = k.val
    omega)

/-- A sum over triple indices, outer coordinate first. -/
theorem sum_join {M : Type*} [AddCommMonoid M] (g : Fin 32768 → M) :
    ∑ k, g k = ∑ a : Fin 32, ∑ k : Fin 1024, g (join a k) := by
  rw [← joinEquiv.sum_comp, Fintype.sum_prod_type]
  rfl

/-- A sum over 96 columns is the sum over its three blocks of 32. -/
theorem sum_three_blocks {M : Type*} [AddCommMonoid M] (f : Fin 96 → M) :
    ∑ c, f c = (∑ r : Fin 32, f ⟨r.val, by omega⟩) + ((∑ r : Fin 32, f ⟨32 + r.val, by omega⟩)
      + ∑ r : Fin 32, f ⟨64 + r.val, by omega⟩) := by
  have h1 := Fin.sum_univ_add (a := 32) (b := 64) (fun c : Fin (32 + 64) => f ⟨c.val, c.isLt⟩)
  have e1 : ∑ c, f c = ∑ c : Fin (32 + 64), f ⟨c.val, c.isLt⟩ := rfl
  rw [e1, h1]
  congr 1
  have h2 := Fin.sum_univ_add (a := 32) (b := 32) (fun c : Fin (32 + 32) => f ⟨32 + c.val, by have := c.isLt; omega⟩)
  refine h2.trans ?_
  congr 1

section Generic

variable {R : Type*} [AddCommMonoid R] [Mul R]
variable (x : Fin 1024 → R) (cst : R) (O0 O1 O2 : Fin 32 → R)
variable (I0 I10 I11 I20 I21 I22 : Fin 32 → Fin 1024 → R)
variable (G0 : Fin 32 → Fin 32 → R) (G1 : Fin 32 → Fin 1024 → R) (G2 : Fin 32 → Fin 32768 → R)

/-! ## The reference's grouping -/

/-- A projection of the row, factor first. -/
def proj (I : Fin 32 → Fin 1024 → R) (a : Fin 32) : R := ∑ i, I a i * x i
def refT0 (r : Fin 32) : R := ∑ a, G0 r a * proj x I0 a
def refT1 (r : Fin 32) : R := ∑ k : Fin 1024, G1 r k * (proj x I10 (lo k) * proj x I11 (hi k))
def refT2 (r : Fin 32) : R :=
  ∑ k : Fin 32768, G2 r k * ((proj x I20 (c0 k) * proj x I21 (c1 k)) * proj x I22 (c2 k))
/-- The reference's entry: the constant, then the three orders added one after the other. -/
def refY : R :=
  ((cst + ∑ r, O0 r * refT0 x I0 G0 r) + ∑ r, O1 r * refT1 x I10 I11 G1 r) + ∑ r, O2 r * refT2 x I20 I21 I22 G2 r

/-! ## The kernel's grouping -/

/-- A projection of the row, row first. -/
def projK (I : Fin 32 → Fin 1024 → R) (a : Fin 32) : R := ∑ i, x i * I a i
def kerT0 (r : Fin 32) : R := ∑ a, projK x I0 a * G0 r a
def kerT1 (r : Fin 32) : R := ∑ k : Fin 1024, (projK x I11 (hi k) * projK x I10 (lo k)) * G1 r k
/-- The order-2 core contracted over the inner pair, for each value of the outer mode. -/
def kerH2 (r a : Fin 32) : R := ∑ k : Fin 1024, (projK x I21 (hi k) * projK x I20 (lo k)) * G2 r (join a k)
def kerT2 (r : Fin 32) : R := ∑ a, kerH2 x I20 I21 G2 r a * projK x I22 a
/-- The kernel's entry: the constant plus the three orders' blocks of one contraction of width 96. -/
def kerY : R :=
  cst + ((∑ r, kerT0 x I0 G0 r * O0 r) + ((∑ r, kerT1 x I10 I11 G1 r * O1 r) + ∑ r, kerT2 x I20 I21 I22 G2 r * O2 r))

end Generic

/-! ## The two groupings agree over the reals -/

section Real

variable (x : Fin 1024 → ℝ) (cst : ℝ) (O0 O1 O2 : Fin 32 → ℝ)
variable (I0 I10 I11 I20 I21 I22 : Fin 32 → Fin 1024 → ℝ)
variable (G0 : Fin 32 → Fin 32 → ℝ) (G1 : Fin 32 → Fin 1024 → ℝ) (G2 : Fin 32 → Fin 32768 → ℝ)

theorem projK_eq (I : Fin 32 → Fin 1024 → ℝ) (a : Fin 32) : projK x I a = proj x I a :=
  Finset.sum_congr rfl fun _ _ => mul_comm _ _

theorem kerT0_eq (r : Fin 32) : kerT0 x I0 G0 r = refT0 x I0 G0 r :=
  Finset.sum_congr rfl fun a _ => by rw [projK_eq, mul_comm]

theorem kerT1_eq (r : Fin 32) : kerT1 x I10 I11 G1 r = refT1 x I10 I11 G1 r :=
  Finset.sum_congr rfl fun k _ => by rw [projK_eq, projK_eq]; ring

/-- Mode by mode against the flattened triple: the outer projection is a common factor of the inner sum. -/
theorem kerT2_eq (r : Fin 32) : kerT2 x I20 I21 I22 G2 r = refT2 x I20 I21 I22 G2 r := by
  unfold kerT2 refT2 kerH2
  rw [sum_join]
  refine Finset.sum_congr rfl fun a _ => ?_
  rw [Finset.sum_mul]
  refine Finset.sum_congr rfl fun k _ => ?_
  rw [c0_join, c1_join, c2_join, projK_eq, projK_eq, projK_eq]
  ring

theorem kerY_eq_refY :
    kerY x cst O0 O1 O2 I0 I10 I11 I20 I21 I22 G0 G1 G2 = refY x cst O0 O1 O2 I0 I10 I11 I20 I21 I22 G0 G1 G2 := by
  unfold kerY refY
  have e0 : ∑ r, kerT0 x I0 G0 r * O0 r = ∑ r, O0 r * refT0 x I0 G0 r :=
    Finset.sum_congr rfl fun r _ => by rw [kerT0_eq, mul_comm]
  have e1 : ∑ r, kerT1 x I10 I11 G1 r * O1 r = ∑ r, O1 r * refT1 x I10 I11 G1 r :=
    Finset.sum_congr rfl fun r _ => by rw [kerT1_eq, mul_comm]
  have e2 : ∑ r, kerT2 x I20 I21 I22 G2 r * O2 r = ∑ r, O2 r * refT2 x I20 I21 I22 G2 r :=
    Finset.sum_congr rfl fun r _ => by rw [kerT2_eq, mul_comm]
  rw [e0, e1, e2]
  ring

end Real

/-! ## Through the coercion into the extended reals -/

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Coe

variable (x : Fin 1024 → ℝ) (cst : ℝ) (O0 O1 O2 : Fin 32 → ℝ)
variable (I0 I10 I11 I20 I21 I22 : Fin 32 → Fin 1024 → ℝ)
variable (G0 : Fin 32 → Fin 32 → ℝ) (G1 : Fin 32 → Fin 1024 → ℝ) (G2 : Fin 32 → Fin 32768 → ℝ)

/-- The kernel's entry on coerced real inputs is the coerced real entry. -/
theorem kerY_coe :
    kerY (R := EReal) (fun i => x i) cst (fun r => O0 r) (fun r => O1 r) (fun r => O2 r)
        (fun a i => I0 a i) (fun a i => I10 a i) (fun a i => I11 a i) (fun a i => I20 a i) (fun a i => I21 a i)
        (fun a i => I22 a i) (fun r a => G0 r a) (fun r k => G1 r k) (fun r k => G2 r k)
      = ((kerY x cst O0 O1 O2 I0 I10 I11 I20 I21 I22 G0 G1 G2 : ℝ) : EReal) := by
  simp only [kerY, kerT0, kerT1, kerT2, kerH2, projK, coe_sum, EReal.coe_add, EReal.coe_mul]

/-- The reference's entry on coerced real inputs is the coerced real entry. -/
theorem refY_coe :
    refY (R := EReal) (fun i => x i) cst (fun r => O0 r) (fun r => O1 r) (fun r => O2 r)
        (fun a i => I0 a i) (fun a i => I10 a i) (fun a i => I11 a i) (fun a i => I20 a i) (fun a i => I21 a i)
        (fun a i => I22 a i) (fun r a => G0 r a) (fun r k => G1 r k) (fun r k => G2 r k)
      = ((refY x cst O0 O1 O2 I0 I10 I11 I20 I21 I22 G0 G1 G2 : ℝ) : EReal) := by
  simp only [refY, refT0, refT1, refT2, proj, coe_sum, EReal.coe_add, EReal.coe_mul]

/-- On real inputs the two programs' entries are the same extended real. -/
theorem kerY_eq_refY_coe :
    kerY (R := EReal) (fun i => x i) cst (fun r => O0 r) (fun r => O1 r) (fun r => O2 r)
        (fun a i => I0 a i) (fun a i => I10 a i) (fun a i => I11 a i) (fun a i => I20 a i) (fun a i => I21 a i)
        (fun a i => I22 a i) (fun r a => G0 r a) (fun r k => G1 r k) (fun r k => G2 r k)
      = refY (R := EReal) (fun i => x i) cst (fun r => O0 r) (fun r => O1 r) (fun r => O2 r)
        (fun a i => I0 a i) (fun a i => I10 a i) (fun a i => I11 a i) (fun a i => I20 a i) (fun a i => I21 a i)
        (fun a i => I22 a i) (fun r a => G0 r a) (fun r k => G1 r k) (fun r k => G2 r k) := by
  rw [kerY_coe, refY_coe, kerY_eq_refY]

end Coe

end Cert.Spec

end
-- ==== Proof.LibNary.lean ====
/-
  The result of a many-operand host operation over a LITERAL family of references, with each operand's contents at
  its own reference: the form under which a line's contents keep being computed operand by operand. The library
  states it for four operands; here for three and for six, with the computation of a line's contents that uses them.
-/
import Idealize.ShloMosaic.Lib.StableHlo.Run

noncomputable section

namespace Idealize.ShloMosaic.StableHlo

variable {τ : Topo} {sig : RefSig} {Val : EltTy → Type}
variable {x0 x1 x2 x3 x4 x5 y : Ref sig .tc}

/-- A three-operand operation's result at its own buffer is its function of the three operands' contents, each
    read at its own reference (rather than at the family applied to a bound position). -/
theorem nary3_result
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl

/-- The same for six operands. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl

/-- What one buffer holds after a literal line of host operations, computed operation by operation: each operation's
    result at its own buffer is its function's value, at any other reference what was there (the references told
    apart by evaluation); a three- or six-operand operation's operands are read each at its own reference, so the
    computation goes on through them. -/
macro "after_results_n" : tactic =>
  `(tactic| (simp only [after_cons, after_nil]
             repeat (first
               | rw [nullary_result] | rw [unary_result] | rw [binary_result] | rw [ternary_result] | rw [quaternary_result]
               | rw [reshape_result] | rw [nary3_result] | rw [nary6_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-- The two results above restated for one simplification pass (the result reference un-indexed, as the library
    does for its own). -/
theorem nary3_result'
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) :=
  nary3_result f hxs hy F
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) :=
  nary6_result f hxs hy F

/-- The same computation as one simplification pass: each shared subterm is visited once. -/
macro "after_results_simp_n" : tactic =>
  `(tactic| (simp (disch := decide) only [after_cons, after_nil,
      nullary_result', unary_result', binary_result', ternary_result', quaternary_result', reshape_result',
      nary3_result', nary6_result', nary4_result',
      nullary_result_ne', unary_result_ne', binary_result_ne', ternary_result_ne', quaternary_result_ne', reshape_result_ne',
      nary_result_ne']))

end Idealize.ShloMosaic.StableHlo

end
-- ==== Proof.HostArrays.lean ====
/- What the six window arrays computed by the host operations hold, as terms of the argument arrays at launch, and
   read at coordinates: the bias as a row, the six input-factor slabs stacked, the three output factors side by side,
   the three cores. At the ideal instance a change of float format is the identity. -/
import proofs.«151261_j26113401160148_2_alg».proof.Proof.FrameIdeal
import proofs.«151261_j26113401160148_2_alg».proof.Proof.LibIxVal
import proofs.«151261_j26113401160148_2_alg».proof.Proof.Spec
import proofs.«151261_j26113401160148_2_alg».proof.Proof.LibNary
import Idealize.ShloMosaic.Lib.Pipeline.Value
import Idealize.ShloMosaic.Lib.ValueIdx

noncomputable section

namespace Cert.KernelIdeal.Host

open Cert.KernelIdeal Cert.KernelIdeal.Gen Cert.KernelIdeal.Fr
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## Layout operations read at coordinates -/

/-- A flat vector read as one row. -/
theorem row_of_flat (X : S1024.Idx → EReal) (u : Fin 1) (o : Fin 1024) :
    shapeCast S1x1024 X shapeCasts_S1024_S1x1024 (ix2 u o) = X (ix1 o) :=
  shapeCast_apply _ _ _ _ (by
    rw [Shape.rowMajor_val_one, Shape.rowMajor_val_two]
    show (o : Nat) = (u : Nat) * 1024 + (o : Nat)
    have := u.isLt; omega)

/-- A one-slab stack read as its slab. -/
theorem slab_of_stack (X : S1x32x1024.Idx → EReal) (z : Fin 1) (a : Fin 32) (i : Fin 1024) :
    shapeCast S32x1024 X shapeCasts_S1x32x1024_S32x1024 (ix2 a i) = X (ix3 z a i) :=
  shapeCast_apply _ _ _ _ (by
    rw [Shape.rowMajor_val_three, Shape.rowMajor_val_two]
    show ((z : Nat) * 32 + (a : Nat)) * 1024 + (i : Nat) = (a : Nat) * 1024 + (i : Nat)
    have := z.isLt; omega)

/-- Slab `q` of a stack of two, cut out as a one-slab stack. -/
theorem slab_of_two (X : S2x32x1024.Idx → EReal) (q : Fin 2) (h : S2x32x1024.Slices ![q.val, 0, 0] S1x32x1024) (z : Fin 1) (a : Fin 32) (i : Fin 1024) :
    extractStridedSlice S1x32x1024 ![q.val, 0, 0] X h (ix3 z a i) = X (ix3 q a i) :=
  extractStridedSlice_apply _ _ _ _ _ (fun b => by
    match b with
    | ⟨0, _⟩ => show (q : Nat) = (q : Nat) + (z : Nat); have := z.isLt; omega
    | ⟨1, _⟩ => show (a : Nat) = 0 + (a : Nat); omega
    | ⟨2, _⟩ => show (i : Nat) = 0 + (i : Nat); omega)

/-- Slab `q` of a stack of three, cut out as a one-slab stack. -/
theorem slab_of_three (X : S3x32x1024.Idx → EReal) (q : Fin 3) (h : S3x32x1024.Slices ![q.val, 0, 0] S1x32x1024) (z : Fin 1) (a : Fin 32) (i : Fin 1024) :
    extractStridedSlice S1x32x1024 ![q.val, 0, 0] X h (ix3 z a i) = X (ix3 q a i) :=
  extractStridedSlice_apply _ _ _ _ _ (fun b => by
    match b with
    | ⟨0, _⟩ => show (q : Nat) = (q : Nat) + (z : Nat); have := z.isLt; omega
    | ⟨1, _⟩ => show (a : Nat) = 0 + (a : Nat); omega
    | ⟨2, _⟩ => show (i : Nat) = 0 + (i : Nat); omega)

/-- A matrix of 32 long rows read as 1024 rows of 1024: row `r·32 + a`, column `k` is row `r`, column `a·1024 + k`. -/
theorem square_of_long (X : S32x32768.Idx → EReal) (r a : Fin 32) (k : Fin 1024) (hrow : r.val * 32 + a.val < 1024) :
    shapeCast S1024x1024 X shapeCasts_S32x32768_S1024x1024 (ix2 ⟨r.val * 32 + a.val, hrow⟩ k) = X (ix2 r (Cert.Spec.join a k)) :=
  shapeCast_apply _ _ _ _ (by
    rw [Shape.rowMajor_val_two, Shape.rowMajor_val_two]
    show (r : Nat) * 32768 + ((a : Nat) * 1024 + (k : Nat)) = ((r : Nat) * 32 + (a : Nat)) * 1024 + (k : Nat)
    omega)

theorem cat6_0 (X0 X1 X2 X3 X4 X5 : S32x1024.Idx → EReal) (a : Fin 32) (i : Fin 1024) (hrow : 0 + a.val < 192) :
    concatenate S192x1024 0 [⟨S32x1024, X0⟩, ⟨S32x1024, X1⟩, ⟨S32x1024, X2⟩, ⟨S32x1024, X3⟩, ⟨S32x1024, X4⟩, ⟨S32x1024, X5⟩]
        concatenates_S32x1024_S32x1024_S32x1024_S32x1024_S32x1024_S32x1024_S192x1024_d0 (ix2 ⟨0 + a.val, hrow⟩ i) = X0 (ix2 a i) :=
  concatenate_apply_piece (t := S192x1024) 0 _ _ _ 0 (by show 0 < 6; omega) S32x1024 X0 rfl rfl 0 rfl (ix2 a i)
    (fun b hb => by
      match b with
      | ⟨0, _⟩ => exact absurd rfl hb
      | ⟨1, _⟩ => rfl)
    rfl

theorem cat6_1 (X0 X1 X2 X3 X4 X5 : S32x1024.Idx → EReal) (a : Fin 32) (i : Fin 1024) (hrow : 32 + a.val < 192) :
    concatenate S192x1024 0 [⟨S32x1024, X0⟩, ⟨S32x1024, X1⟩, ⟨S32x1024, X2⟩, ⟨S32x1024, X3⟩, ⟨S32x1024, X4⟩, ⟨S32x1024, X5⟩]
        concatenates_S32x1024_S32x1024_S32x1024_S32x1024_S32x1024_S32x1024_S192x1024_d0 (ix2 ⟨32 + a.val, hrow⟩ i) = X1 (ix2 a i) :=
  concatenate_apply_piece (t := S192x1024) 0 _ _ _ 1 (by show 1 < 6; omega) S32x1024 X1 rfl rfl 32 rfl (ix2 a i)
    (fun b hb => by
      match b with
      | ⟨0, _⟩ => exact absurd rfl hb
      | ⟨1, _⟩ => rfl)
    rfl

theorem cat6_2 (X0 X1 X2 X3 X4 X5 : S32x1024.Idx → EReal) (a : Fin 32) (i : Fin 1024) (hrow : 64 + a.val < 192) :
    concatenate S192x1024 0 [⟨S32x1024, X0⟩, ⟨S32x1024, X1⟩, ⟨S32x1024, X2⟩, ⟨S32x1024, X3⟩, ⟨S32x1024, X4⟩, ⟨S32x1024, X5⟩]
        concatenates_S32x1024_S32x1024_S32x1024_S32x1024_S32x1024_S32x1024_S192x1024_d0 (ix2 ⟨64 + a.val, hrow⟩ i) = X2 (ix2 a i) :=
  concatenate_apply_piece (t := S192x1024) 0 _ _ _ 2 (by show 2 < 6; omega) S32x1024 X2 rfl rfl 64 rfl (ix2 a i)
    (fun b hb => by
      match b with
      | ⟨0, _⟩ => exact absurd rfl hb
      | ⟨1, _⟩ => rfl)
    rfl

theorem cat6_3 (X0 X1 X2 X3 X4 X5 : S32x1024.Idx → EReal) (a : Fin 32) (i : Fin 1024) (hrow : 96 + a.val < 192) :
    concatenate S192x1024 0 [⟨S32x1024, X0⟩, ⟨S32x1024, X1⟩, ⟨S32x1024, X2⟩, ⟨S32x1024, X3⟩, ⟨S32x1024, X4⟩, ⟨S32x1024, X5⟩]
        concatenates_S32x1024_S32x1024_S32x1024_S32x1024_S32x1024_S32x1024_S192x1024_d0 (ix2 ⟨96 + a.val, hrow⟩ i) = X3 (ix2 a i) :=
  concatenate_apply_piece (t := S192x1024) 0 _ _ _ 3 (by show 3 < 6; omega) S32x1024 X3 rfl rfl 96 rfl (ix2 a i)
    (fun b hb => by
      match b with
      | ⟨0, _⟩ => exact absurd rfl hb
      | ⟨1, _⟩ => rfl)
    rfl

theorem cat6_4 (X0 X1 X2 X3 X4 X5 : S32x1024.Idx → EReal) (a : Fin 32) (i : Fin 1024) (hrow : 128 + a.val < 192) :
    concatenate S192x1024 0 [⟨S32x1024, X0⟩, ⟨S32x1024, X1⟩, ⟨S32x1024, X2⟩, ⟨S32x1024, X3⟩, ⟨S32x1024, X4⟩, ⟨S32x1024, X5⟩]
        concatenates_S32x1024_S32x1024_S32x1024_S32x1024_S32x1024_S32x1024_S192x1024_d0 (ix2 ⟨128 + a.val, hrow⟩ i) = X4 (ix2 a i) :=
  concatenate_apply_piece (t := S192x1024) 0 _ _ _ 4 (by show 4 < 6; omega) S32x1024 X4 rfl rfl 128 rfl (ix2 a i)
    (fun b hb => by
      match b with
      | ⟨0, _⟩ => exact absurd rfl hb
      | ⟨1, _⟩ => rfl)
    rfl

theorem cat6_5 (X0 X1 X2 X3 X4 X5 : S32x1024.Idx → EReal) (a : Fin 32) (i : Fin 1024) (hrow : 160 + a.val < 192) :
    concatenate S192x1024 0 [⟨S32x1024, X0⟩, ⟨S32x1024, X1⟩, ⟨S32x1024, X2⟩, ⟨S32x1024, X3⟩, ⟨S32x1024, X4⟩, ⟨S32x1024, X5⟩]
        concatenates_S32x1024_S32x1024_S32x1024_S32x1024_S32x1024_S32x1024_S192x1024_d0 (ix2 ⟨160 + a.val, hrow⟩ i) = X5 (ix2 a i) :=
  concatenate_apply_piece (t := S192x1024) 0 _ _ _ 5 (by show 5 < 6; omega) S32x1024 X5 rfl rfl 160 rfl (ix2 a i)
    (fun b hb => by
      match b with
      | ⟨0, _⟩ => exact absurd rfl hb
      | ⟨1, _⟩ => rfl)
    rfl

theorem cat3_0 (X0 X1 X2 : S1024x32.Idx → EReal) (o : Fin 1024) (r : Fin 32) (hcol : 0 + r.val < 96) :
    concatenate S1024x96 1 [⟨S1024x32, X0⟩, ⟨S1024x32, X1⟩, ⟨S1024x32, X2⟩]
        concatenates_S1024x32_S1024x32_S1024x32_S1024x96_d1 (ix2 o ⟨0 + r.val, hcol⟩) = X0 (ix2 o r) :=
  concatenate_apply_piece (t := S1024x96) 1 _ _ _ 0 (by show 0 < 3; omega) S1024x32 X0 rfl rfl 0 rfl (ix2 o r)
    (fun b hb => by
      match b with
      | ⟨0, _⟩ => rfl
      | ⟨1, _⟩ => exact absurd rfl hb)
    rfl

theorem cat3_1 (X0 X1 X2 : S1024x32.Idx → EReal) (o : Fin 1024) (r : Fin 32) (hcol : 32 + r.val < 96) :
    concatenate S1024x96 1 [⟨S1024x32, X0⟩, ⟨S1024x32, X1⟩, ⟨S1024x32, X2⟩]
        concatenates_S1024x32_S1024x32_S1024x32_S1024x96_d1 (ix2 o ⟨32 + r.val, hcol⟩) = X1 (ix2 o r) :=
  concatenate_apply_piece (t := S1024x96) 1 _ _ _ 1 (by show 1 < 3; omega) S1024x32 X1 rfl rfl 32 rfl (ix2 o r)
    (fun b hb => by
      match b with
      | ⟨0, _⟩ => rfl
      | ⟨1, _⟩ => exact absurd rfl hb)
    rfl

theorem cat3_2 (X0 X1 X2 : S1024x32.Idx → EReal) (o : Fin 1024) (r : Fin 32) (hcol : 64 + r.val < 96) :
    concatenate S1024x96 1 [⟨S1024x32, X0⟩, ⟨S1024x32, X1⟩, ⟨S1024x32, X2⟩]
        concatenates_S1024x32_S1024x32_S1024x32_S1024x96_d1 (ix2 o ⟨64 + r.val, hcol⟩) = X2 (ix2 o r) :=
  concatenate_apply_piece (t := S1024x96) 1 _ _ _ 2 (by show 2 < 3; omega) S1024x32 X2 rfl rfl 64 rfl (ix2 o r)
    (fun b hb => by
      match b with
      | ⟨0, _⟩ => rfl
      | ⟨1, _⟩ => exact absurd rfl hb)
    rfl

/-! ## The window arrays the host operations compute, as terms of the argument arrays -/

/-- Window 1's array: the bias vector as one row. -/
theorem v0_eq (c : Dev nD) : (V m c main_v0 : S1x1024.Idx → EReal) = shapeCast S1x1024 (m ((c : Thread nD τ).loc main_arg1) : S1024.Idx → EReal) shapeCasts_S1024_S1x1024 := by
  dsimp only [V, hostOps0]; after_results_n; rfl

set_option maxHeartbeats 2000000 in
/-- Window 2's array: the six input-factor slabs stacked along the rows, then the format change. -/
theorem v13_eq (c : Dev nD) : (V m c main_v13 : S192x1024.Idx → EReal) = truncf (F := Ideal) .bf16 (concatenate S192x1024 0 [⟨S32x1024, shapeCast S32x1024 (m ((c : Thread nD τ).loc main_arg5) : S1x32x1024.Idx → EReal) shapeCasts_S1x32x1024_S32x1024⟩, ⟨S32x1024, shapeCast S32x1024 (extractStridedSlice S1x32x1024 ![0, 0, 0] (m ((c : Thread nD τ).loc main_arg6) : S2x32x1024.Idx → EReal) slices_S2x32x1024_S1x32x1024_0_0_0) shapeCasts_S1x32x1024_S32x1024⟩, ⟨S32x1024, shapeCast S32x1024 (extractStridedSlice S1x32x1024 ![1, 0, 0] (m ((c : Thread nD τ).loc main_arg6) : S2x32x1024.Idx → EReal) slices_S2x32x1024_S1x32x1024_1_0_0) shapeCasts_S1x32x1024_S32x1024⟩, ⟨S32x1024, shapeCast S32x1024 (extractStridedSlice S1x32x1024 ![0, 0, 0] (m ((c : Thread nD τ).loc main_arg7) : S3x32x1024.Idx → EReal) slices_S3x32x1024_S1x32x1024_0_0_0) shapeCasts_S1x32x1024_S32x1024⟩, ⟨S32x1024, shapeCast S32x1024 (extractStridedSlice S1x32x1024 ![1, 0, 0] (m ((c : Thread nD τ).loc main_arg7) : S3x32x1024.Idx → EReal) slices_S3x32x1024_S1x32x1024_1_0_0) shapeCasts_S1x32x1024_S32x1024⟩, ⟨S32x1024, shapeCast S32x1024 (extractStridedSlice S1x32x1024 ![2, 0, 0] (m ((c : Thread nD τ).loc main_arg7) : S3x32x1024.Idx → EReal) slices_S3x32x1024_S1x32x1024_2_0_0) shapeCasts_S1x32x1024_S32x1024⟩] concatenates_S32x1024_S32x1024_S32x1024_S32x1024_S32x1024_S32x1024_S192x1024_d0 : FVec Ideal S192x1024 .f32) bitsLt_bf16_f32 := by
  dsimp only [V, hostOps0]; after_results_simp_n; rfl

set_option maxHeartbeats 2000000 in
/-- Window 3's array: the three output factors side by side, then the format change. -/
theorem v15_eq (c : Dev nD) : (V m c main_v15 : S1024x96.Idx → EReal) = truncf (F := Ideal) .bf16 (concatenate S1024x96 1 [⟨S1024x32, (m ((c : Thread nD τ).loc main_arg2) : S1024x32.Idx → EReal)⟩, ⟨S1024x32, (m ((c : Thread nD τ).loc main_arg3) : S1024x32.Idx → EReal)⟩, ⟨S1024x32, (m ((c : Thread nD τ).loc main_arg4) : S1024x32.Idx → EReal)⟩] concatenates_S1024x32_S1024x32_S1024x32_S1024x96_d1 : FVec Ideal S1024x96 .f32) bitsLt_bf16_f32 := by
  dsimp only [V, hostOps0]; after_results_simp_n; rfl

/-- Window 4's array: the order-0 core, format changed. -/
theorem v16_eq (c : Dev nD) : (V m c main_v16 : S32x32.Idx → EReal) = truncf (F := Ideal) .bf16 (m ((c : Thread nD τ).loc main_arg8) : FVec Ideal S32x32 .f32) bitsLt_bf16_f32 := by
  dsimp only [V, hostOps0]; after_results_simp_n

/-- Window 5's array: the order-1 core, format changed. -/
theorem v17_eq (c : Dev nD) : (V m c main_v17 : S32x1024.Idx → EReal) = truncf (F := Ideal) .bf16 (m ((c : Thread nD τ).loc main_arg9) : FVec Ideal S32x1024 .f32) bitsLt_bf16_f32 := by
  dsimp only [V, hostOps0]; after_results_simp_n

/-- Window 6's array: the order-2 core read as a square matrix, format changed. -/
theorem v19_eq (c : Dev nD) : (V m c main_v19 : S1024x1024.Idx → EReal) = truncf (F := Ideal) .bf16 (shapeCast S1024x1024 (m ((c : Thread nD τ).loc main_arg10) : S32x32768.Idx → EReal) shapeCasts_S32x32768_S1024x1024 : FVec Ideal S1024x1024 .f32) bitsLt_bf16_f32 := by
  dsimp only [V, hostOps0]; after_results_simp_n; rfl

/-! ## The same arrays read at coordinates -/

/-- Window 1's array at column `o` is the bias at `o`. -/
theorem v0_at (c : Dev nD) (u : Fin 1) (o : Fin 1024) :
    (V m c main_v0 : S1x1024.Idx → EReal) (ix2 u o) = (m ((c : Thread nD τ).loc main_arg1) : S1024.Idx → EReal) (ix1 o) := by
  rw [v0_eq]; exact row_of_flat _ u o

/-- Rows 0–31 of window 2's array are the order-0 input factor. -/
theorem v13_at0 (c : Dev nD) (a : Fin 32) (i : Fin 1024) :
    (V m c main_v13 : S192x1024.Idx → EReal) (ix2 ⟨a.val, by omega⟩ i) = (m ((c : Thread nD τ).loc main_arg5) : S1x32x1024.Idx → EReal) (ix3 (0 : Fin 1) a i) := by
  rw [v13_eq]
  rw [truncf_apply]
  rw [show (⟨a.val, by omega⟩ : Fin 192) = ⟨0 + a.val, by omega⟩ from Fin.ext (Nat.zero_add _).symm]
  rw [cat6_0 _ _ _ _ _ _ a i (by omega)]
  exact slab_of_stack _ 0 a i

/-- Rows 32–63 of window 2's array are slab 0 of the order-1 input factors. -/
theorem v13_at1 (c : Dev nD) (a : Fin 32) (i : Fin 1024) :
    (V m c main_v13 : S192x1024.Idx → EReal) (ix2 ⟨32 + a.val, by omega⟩ i) = (m ((c : Thread nD τ).loc main_arg6) : S2x32x1024.Idx → EReal) (ix3 (⟨0, by omega⟩ : Fin 2) a i) := by
  rw [v13_eq]
  rw [truncf_apply]
  rw [cat6_1 _ _ _ _ _ _ a i (by omega)]
  rw [slab_of_stack _ 0 a i]
  exact slab_of_two _ ⟨0, by omega⟩ _ 0 a i

/-- Rows 64–95 of window 2's array are slab 1 of the order-1 input factors. -/
theorem v13_at2 (c : Dev nD) (a : Fin 32) (i : Fin 1024) :
    (V m c main_v13 : S192x1024.Idx → EReal) (ix2 ⟨64 + a.val, by omega⟩ i) = (m ((c : Thread nD τ).loc main_arg6) : S2x32x1024.Idx → EReal) (ix3 (⟨1, by omega⟩ : Fin 2) a i) := by
  rw [v13_eq]
  rw [truncf_apply]
  rw [cat6_2 _ _ _ _ _ _ a i (by omega)]
  rw [slab_of_stack _ 0 a i]
  exact slab_of_two _ ⟨1, by omega⟩ _ 0 a i

/-- Rows 96–127 of window 2's array are slab 0 of the order-2 input factors. -/
theorem v13_at3 (c : Dev nD) (a : Fin 32) (i : Fin 1024) :
    (V m c main_v13 : S192x1024.Idx → EReal) (ix2 ⟨96 + a.val, by omega⟩ i) = (m ((c : Thread nD τ).loc main_arg7) : S3x32x1024.Idx → EReal) (ix3 (⟨0, by omega⟩ : Fin 3) a i) := by
  rw [v13_eq]
  rw [truncf_apply]
  rw [cat6_3 _ _ _ _ _ _ a i (by omega)]
  rw [slab_of_stack _ 0 a i]
  exact slab_of_three _ ⟨0, by omega⟩ _ 0 a i

/-- Rows 128–159 of window 2's array are slab 1 of the order-2 input factors. -/
theorem v13_at4 (c : Dev nD) (a : Fin 32) (i : Fin 1024) :
    (V m c main_v13 : S192x1024.Idx → EReal) (ix2 ⟨128 + a.val, by omega⟩ i) = (m ((c : Thread nD τ).loc main_arg7) : S3x32x1024.Idx → EReal) (ix3 (⟨1, by omega⟩ : Fin 3) a i) := by
  rw [v13_eq]
  rw [truncf_apply]
  rw [cat6_4 _ _ _ _ _ _ a i (by omega)]
  rw [slab_of_stack _ 0 a i]
  exact slab_of_three _ ⟨1, by omega⟩ _ 0 a i

/-- Rows 160–191 of window 2's array are slab 2 of the order-2 input factors. -/
theorem v13_at5 (c : Dev nD) (a : Fin 32) (i : Fin 1024) :
    (V m c main_v13 : S192x1024.Idx → EReal) (ix2 ⟨160 + a.val, by omega⟩ i) = (m ((c : Thread nD τ).loc main_arg7) : S3x32x1024.Idx → EReal) (ix3 (⟨2, by omega⟩ : Fin 3) a i) := by
  rw [v13_eq]
  rw [truncf_apply]
  rw [cat6_5 _ _ _ _ _ _ a i (by omega)]
  rw [slab_of_stack _ 0 a i]
  exact slab_of_three _ ⟨2, by omega⟩ _ 0 a i

/-- Columns 0–31 of window 3's array are the order-0 output factor. -/
theorem v15_at0 (c : Dev nD) (o : Fin 1024) (r : Fin 32) :
    (V m c main_v15 : S1024x96.Idx → EReal) (ix2 o ⟨r.val, by omega⟩) = (m ((c : Thread nD τ).loc main_arg2) : S1024x32.Idx → EReal) (ix2 o r) := by
  rw [v15_eq]
  rw [truncf_apply]
  rw [show (⟨r.val, by omega⟩ : Fin 96) = ⟨0 + r.val, by omega⟩ from Fin.ext (Nat.zero_add _).symm]
  exact cat3_0 _ _ _ o r (by omega)

/-- Columns 32–63 of window 3's array are the order-1 output factor. -/
theorem v15_at1 (c : Dev nD) (o : Fin 1024) (r : Fin 32) :
    (V m c main_v15 : S1024x96.Idx → EReal) (ix2 o ⟨32 + r.val, by omega⟩) = (m ((c : Thread nD τ).loc main_arg3) : S1024x32.Idx → EReal) (ix2 o r) := by
  rw [v15_eq]
  rw [truncf_apply]
  exact cat3_1 _ _ _ o r (by omega)

/-- Columns 64–95 of window 3's array are the order-2 output factor. -/
theorem v15_at2 (c : Dev nD) (o : Fin 1024) (r : Fin 32) :
    (V m c main_v15 : S1024x96.Idx → EReal) (ix2 o ⟨64 + r.val, by omega⟩) = (m ((c : Thread nD τ).loc main_arg4) : S1024x32.Idx → EReal) (ix2 o r) := by
  rw [v15_eq]
  rw [truncf_apply]
  exact cat3_2 _ _ _ o r (by omega)

/-- Window 4's array is the order-0 core. -/
theorem v16_at (c : Dev nD) (r a : Fin 32) :
    (V m c main_v16 : S32x32.Idx → EReal) (ix2 r a) = (m ((c : Thread nD τ).loc main_arg8) : S32x32.Idx → EReal) (ix2 r a) := by
  rw [v16_eq]; rfl

/-- Window 5's array is the order-1 core. -/
theorem v17_at (c : Dev nD) (r : Fin 32) (k : Fin 1024) :
    (V m c main_v17 : S32x1024.Idx → EReal) (ix2 r k) = (m ((c : Thread nD τ).loc main_arg9) : S32x1024.Idx → EReal) (ix2 r k) := by
  rw [v17_eq]; rfl

/-- Window 6's array at row `r·32 + a`, column `k` is the order-2 core at row `r`, flattened position `a·1024 + k`. -/
theorem v19_at (c : Dev nD) (r a : Fin 32) (k : Fin 1024) :
    (V m c main_v19 : S1024x1024.Idx → EReal) (ix2 ⟨r.val * 32 + a.val, by omega⟩ k) = (m ((c : Thread nD τ).loc main_arg10) : S32x32768.Idx → EReal) (ix2 r (Cert.Spec.join a k)) := by
  rw [v19_eq]
  rw [truncf_apply]
  exact square_of_long _ r a k (by omega)

end Cert.KernelIdeal.Host

end
-- ==== Proof.LibKeep.lean ====
/-
  Four layout steps around a kept unit axis, each read at an index written by coordinates: a matrix given a trailing
  axis of extent one and then repeated along it, and a column passed through rank 3 and back. A cast keeps the
  row-major position; a broadcast reads coordinate zero on an axis of extent one.
-/
import Idealize.ShloMosaic.Lib.Pipeline.Value
import Idealize.ShloMosaic.Lib.ValueIdx

namespace Idealize.ShloMosaic.ValueIdx

variable {α : Type}

/-- An [a, b] matrix cast to [a, b, 1] reads, at (i, j, u), the operand at (i, j): both have row-major
    position i · b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A column [a, 1] cast to [a, 1, 1] reads, at (i, u, v), the column's entry of row i. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    rw [hu, hv, Nat.mul_one, Nat.add_zero, Nat.mul_one, Nat.add_zero])

/-- An [a, 1, 1] array cast to the column [a, 1] reads, at (i, u), the operand at (i, 0, 0). -/
theorem shapeCast_a11_a1_apply {a : ℕ} (x : (⟨3, ![a, 1, 1]⟩ : Shape).Idx → α)
    (h : (⟨3, ![a, 1, 1]⟩ : Shape).ShapeCasts ⟨2, ![a, 1]⟩) (i : Fin a) (u : Fin 1) :
    shapeCast ⟨2, ![a, 1]⟩ x h (ix2 i u) = x (ix3 i (0 : Fin 1) (0 : Fin 1)) :=
  shapeCast_apply x h _ _ (by
    have hu : u.val = 0 := by omega
    rw [Shape.rowMajor_val_three, Shape.rowMajor_val_two]
    show (i.val * 1 + 0) * 1 + 0 = i.val * 1 + u.val
    rw [hu, Nat.add_zero, Nat.mul_one])

end Idealize.ShloMosaic.ValueIdx
-- ==== Proof.LibLayout.lean ====
/-
  Three layout operations read at an index, at rank 3, with every index written by its coordinates. A value that
  depends on the first and last coordinates only is laid out along a middle axis of extent one and then repeated along
  it; a value that depends on the last two coordinates only is given a leading axis of extent one and then repeated
  along that. Reading the result at `(i, j, k)` reads the operand at `(i, k)`, respectively `(j, k)`: a cast keeps
  the row-major position, and a broadcast reads coordinate zero on an axis of extent one.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, c]` array cast to `[a, 1, c]` reads, at `(i, u, k)`, the operand at `(i, k)`: both have row-major
    position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.LibMatmulT.lean ====
/-
  A matrix product that contracts the LAST axis of both operands, [a, K] × [b, K] → [a, b], accumulated into the zero
  matrix and read at an entry over the extended reals: entry (i, j) is the sum over k of the left operand at (i, k)
  times the right operand at (j, k) — the product of the left matrix with the transpose of the right one.
-/
import Idealize.ShloMosaic.Lib.ValueIdx
import Idealize.ShloMosaic.PureOps.Ideal.Laws

open scoped BigOperators

namespace Idealize.ShloMosaic.ValueIdx

open Idealize.ShloMosaic

/-- Let the dimension numbers `D` of a product [a, K] × [b, K] → [a, b] contract one axis of extent `K` (`hr`, `hs`), and let
    the operand indices they name at result index `j` and contraction index `q` be (j₀, q) on the left (`hl0`, `hl1`) and
    (j₁, q) on the right (`hr0`, `hr1`). Then the product into the zero accumulator, read at (i, j) over the extended reals,
    is `∑ k, lhs (i, k) * rhs (j, k)`: the contraction's index set is matched with `Fin K` and the sum re-indexed. -/
theorem matmulT_zero_apply {a K b : ℕ} {φ₁ φ₂ : FTy}
    (D : DotDims ⟨2, ![a, K]⟩ ⟨2, ![b, K]⟩ ⟨2, ![a, b]⟩) (prec : Option ContractPrecision)
    (hr : D.contr.rank = 1) (hs : D.contr.size ⟨0, by omega⟩ = K)
    (hl0 : ∀ (j : (⟨2, ![a, b]⟩ : Shape).Idx) (q : D.contr.Idx), (D.lhsIdx j q 0).val = (j 0).val)
    (hl1 : ∀ (j : (⟨2, ![a, b]⟩ : Shape).Idx) (q : D.contr.Idx), (D.lhsIdx j q 1).val = (q ⟨0, by omega⟩).val)
    (hr0 : ∀ (j : (⟨2, ![a, b]⟩ : Shape).Idx) (q : D.contr.Idx), (D.rhsIdx j q 0).val = (j 1).val)
    (hr1 : ∀ (j : (⟨2, ![a, b]⟩ : Shape).Idx) (q : D.contr.Idx), (D.rhsIdx j q 1).val = (q ⟨0, by omega⟩).val)
    (lhs : FVec Ideal ⟨2, ![a, K]⟩ φ₁) (rhs : FVec Ideal ⟨2, ![b, K]⟩ φ₂) (i : Fin a) (j : Fin b) :
    matmul D prec lhs rhs (constant (F := Ideal) ⟨2, ![a, b]⟩ .f32 0x00000000#32) (ix2 i j)
      = ∑ k : Fin K, lhs (ix2 i k) * rhs (ix2 j k) := by
  show FloatOps.matmul D prec lhs rhs (constant (F := Ideal) ⟨2, ![a, b]⟩ .f32 0x00000000#32) (ix2 i j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun ax => Fin.ext (by
    match ax with
    | ⟨0, _⟩ => exact hl0 _ _
    | ⟨1, _⟩ => exact (hl1 _ _).trans hk)
  have er : D.rhsIdx (ix2 i j) ((contrEquiv1 D K hr hs).symm k) = ix2 j k := funext fun ax => Fin.ext (by
    match ax with
    | ⟨0, _⟩ => exact hr0 _ _
    | ⟨1, _⟩ => exact (hr1 _ _).trans hk)
  rw [el, er]

end Idealize.ShloMosaic.ValueIdx
-- ==== Proof.LibFlatten.lean ====
/-
  Two layout steps read at an index written by coordinates. (1) The last two axes of an [a, b, c] array flattened into
  one axis of extent b · c, and the cast back: both keep the row-major position, so column m of the flat array is the
  pair (m / c, m % c), and the pair (j, k) is column j · c + k. (2) Three matrices with the same number of rows laid
  side by side: a column of the result lies in exactly one of the three blocks, at its own column less the widths of
  the blocks before it.
-/
import Idealize.ShloMosaic.Lib.Pipeline.Value
import Idealize.ShloMosaic.Lib.ValueIdx

namespace Idealize.ShloMosaic.ValueIdx

open Idealize.ShloMosaic

variable {α : Type}

/-! ## Flattening the last two axes, and back -/

/-- An [a, b, c] array cast to [a, n] with n = b · c reads, at (i, m), the operand at (i, j, k) whenever
    m = j · c + k: both have row-major position i · n + m. -/
theorem shapeCast_abc_an_apply {a b c n : ℕ} (x : (⟨3, ![a, b, c]⟩ : Shape).Idx → α)
    (h : (⟨3, ![a, b, c]⟩ : Shape).ShapeCasts ⟨2, ![a, n]⟩) (hn : n = b * c)
    (i : Fin a) (m : Fin n) (j : Fin b) (k : Fin c) (hm : m.val = j.val * c + k.val) :
    shapeCast ⟨2, ![a, n]⟩ x h (ix2 i m) = x (ix3 i j k) :=
  shapeCast_apply x h _ _ (by
    rw [Shape.rowMajor_val_three, Shape.rowMajor_val_two]
    show (i.val * b + j.val) * c + k.val = i.val * n + m.val
    rw [hm, hn, Nat.add_mul, Nat.mul_assoc, Nat.add_assoc])

/-- The same with the pair written out: column m of the flat array is (m / c, m % c). -/
theorem shapeCast_abc_an_eq {a b c n : ℕ} (x : (⟨3, ![a, b, c]⟩ : Shape).Idx → α)
    (h : (⟨3, ![a, b, c]⟩ : Shape).ShapeCasts ⟨2, ![a, n]⟩) (hn : n = b * c) (i : Fin a) (m : Fin n) :
    shapeCast ⟨2, ![a, n]⟩ x h (ix2 i m)
      = x (ix3 i ⟨m.val / c, Nat.div_lt_of_lt_mul (by rw [Nat.mul_comm]; exact lt_of_lt_of_eq m.isLt hn)⟩
          ⟨m.val % c, Nat.mod_lt _ (Nat.pos_of_ne_zero fun hc => by
            have hm := lt_of_lt_of_eq m.isLt hn
            rw [hc, Nat.mul_zero] at hm
            exact Nat.not_lt_zero _ hm)⟩) :=
  shapeCast_abc_an_apply x h hn i m _ _ (by
    show m.val = m.val / c * c + m.val % c
    rw [Nat.mul_comm, Nat.div_add_mod])

/-- An [a, n] array with n = b · c cast to [a, b, c] reads, at (i, j, k), the operand at (i, m) whenever
    m = j · c + k. -/
theorem shapeCast_an_abc_apply {a b c n : ℕ} (x : (⟨2, ![a, n]⟩ : Shape).Idx → α)
    (h : (⟨2, ![a, n]⟩ : Shape).ShapeCasts ⟨3, ![a, b, c]⟩) (hn : n = b * c)
    (i : Fin a) (j : Fin b) (k : Fin c) (m : Fin n) (hm : m.val = j.val * c + k.val) :
    shapeCast ⟨3, ![a, b, c]⟩ x h (ix3 i j k) = x (ix2 i m) :=
  shapeCast_apply x h _ _ (by
    rw [Shape.rowMajor_val_three, Shape.rowMajor_val_two]
    show i.val * n + m.val = (i.val * b + j.val) * c + k.val
    rw [hm, hn, Nat.add_mul, Nat.mul_assoc, Nat.add_assoc])

/-- The same with the column written out: the pair (j, k) is column j · c + k. -/
theorem shapeCast_an_abc_eq {a b c n : ℕ} (x : (⟨2, ![a, n]⟩ : Shape).Idx → α)
    (h : (⟨2, ![a, n]⟩ : Shape).ShapeCasts ⟨3, ![a, b, c]⟩) (hn : n = b * c) (i : Fin a) (j : Fin b) (k : Fin c) :
    shapeCast ⟨3, ![a, b, c]⟩ x h (ix3 i j k)
      = x (ix2 i ⟨j.val * c + k.val, by
          have hj := j.isLt; have hk := k.isLt
          calc j.val * c + k.val < j.val * c + c := Nat.add_lt_add_left hk _
            _ = (j.val + 1) * c := (Nat.succ_mul _ _).symm
            _ ≤ b * c := Nat.mul_le_mul_right _ hj
            _ = n := hn.symm⟩) :=
  shapeCast_an_abc_apply x h hn i j k _ rfl

/-! ## Three blocks side by side -/

section Three
variable {a n₁ n₂ n₃ m : ℕ} (x₁ : (⟨2, ![a, n₁]⟩ : Shape).Idx → α) (x₂ : (⟨2, ![a, n₂]⟩ : Shape).Idx → α)
  (x₃ : (⟨2, ![a, n₃]⟩ : Shape).Idx → α)
  (h : Shape.Concatenates [⟨2, ![a, n₁]⟩, ⟨2, ![a, n₂]⟩, ⟨2, ![a, n₃]⟩] ⟨2, ![a, m]⟩ 1)

/-- A column of the result that is column `c'` of the first block. -/
theorem concatenate3_cols_apply_fst (i : Fin a) (c : Fin m) (c' : Fin n₁) (hc : c'.val = c.val) :
    concatenate ⟨2, ![a, m]⟩ 1 [⟨⟨2, ![a, n₁]⟩, x₁⟩, ⟨⟨2, ![a, n₂]⟩, x₂⟩, ⟨⟨2, ![a, n₃]⟩, x₃⟩] h (ix2 i c) = x₁ (ix2 i c') :=
  concatenate_apply_piece 1 [⟨⟨2, ![a, n₁]⟩, x₁⟩, ⟨⟨2, ![a, n₂]⟩, x₂⟩, ⟨⟨2, ![a, n₃]⟩, x₃⟩] h (ix2 i c) 0 (by simp) _ x₁ rfl rfl 0 rfl (ix2 i c')
    (fun b hb => by
      match b with
      | ⟨0, _⟩ => rfl
      | ⟨1, _⟩ => exact absurd rfl hb)
    (by show 0 + c'.val = c.val; omega)

/-- A column of the result that is column `c'` of the second block: past the first block's width. -/
theorem concatenate3_cols_apply_snd (i : Fin a) (c : Fin m) (c' : Fin n₂) (hc : n₁ + c'.val = c.val) :
    concatenate ⟨2, ![a, m]⟩ 1 [⟨⟨2, ![a, n₁]⟩, x₁⟩, ⟨⟨2, ![a, n₂]⟩, x₂⟩, ⟨⟨2, ![a, n₃]⟩, x₃⟩] h (ix2 i c) = x₂ (ix2 i c') :=
  concatenate_apply_piece 1 [⟨⟨2, ![a, n₁]⟩, x₁⟩, ⟨⟨2, ![a, n₂]⟩, x₂⟩, ⟨⟨2, ![a, n₃]⟩, x₃⟩] h (ix2 i c) 1 (by simp) _ x₂ rfl rfl n₁ (by simp) (ix2 i c')
    (fun b hb => by
      match b with
      | ⟨0, _⟩ => rfl
      | ⟨1, _⟩ => exact absurd rfl hb)
    hc

/-- A column of the result that is column `c'` of the third block: past the first two blocks' widths. -/
theorem concatenate3_cols_apply_trd (i : Fin a) (c : Fin m) (c' : Fin n₃) (hc : n₁ + n₂ + c'.val = c.val) :
    concatenate ⟨2, ![a, m]⟩ 1 [⟨⟨2, ![a, n₁]⟩, x₁⟩, ⟨⟨2, ![a, n₂]⟩, x₂⟩, ⟨⟨2, ![a, n₃]⟩, x₃⟩] h (ix2 i c) = x₃ (ix2 i c') :=
  concatenate_apply_piece 1 [⟨⟨2, ![a, n₁]⟩, x₁⟩, ⟨⟨2, ![a, n₂]⟩, x₂⟩, ⟨⟨2, ![a, n₃]⟩, x₃⟩] h (ix2 i c) 2 (by simp) _ x₃ rfl rfl (n₁ + n₂) (by simp) (ix2 i c')
    (fun b hb => by
      match b with
      | ⟨0, _⟩ => rfl
      | ⟨1, _⟩ => exact absurd rfl hb)
    hc

end Three

end Idealize.ShloMosaic.ValueIdx
-- ==== Proof.KernelAt.lean ====
/-
  The kernel body's arithmetic read at an entry, over the extended reals. With X the [256, 1024] input block, the six
  stacked [32, 1024] projections give z = X · Istackᵀ, a [256, 192] matrix whose six column blocks of width 32 are
  z₀, …, z₅. The three terms are
    t₀ = z₀ · G₀ᵀ,
    t₁ = (z₂ ⊗ z₁) · G₁ᵀ,    the row-wise outer product flattened at column a₁ · 32 + a₀,
    t₂[p, r] = ∑ a, ((z₄ ⊗ z₃) · G₂ᵀ)[p, r · 32 + a] · z₅[p, a],
  laid side by side into a [256, 96] matrix, and the result is that matrix times Ocatᵀ plus the constant row. Every
  rounding step is the identity here, a cast keeps the row-major position, a broadcast repeats along an axis of extent
  one, and a product into the zero matrix is the plain sum over the contracted axis.
-/
import proofs.«151261_j26113401160148_2_alg».proof.Proof.Gen.KernelIdeal.Skeleton
import proofs.«151261_j26113401160148_2_alg».proof.Proof.LibKeep
import proofs.«151261_j26113401160148_2_alg».proof.Proof.LibLayout
import proofs.«151261_j26113401160148_2_alg».proof.Proof.LibMatmulT
import proofs.«151261_j26113401160148_2_alg».proof.Proof.LibFlatten
import Idealize.ShloMosaic.Lib.ValueLayout
import Idealize.ShloMosaic.PureOps.Ideal.Laws

noncomputable section

open scoped BigOperators

namespace Cert.KernelIdeal.At

open Idealize.ShloMosaic Idealize.ShloMosaic.ValueIdx Cert.KernelIdeal Cert.KernelIdeal.Gen

/-! ## The five products, each contracting the last axis of both operands -/

/-- [256, 1024] × [192, 1024] → [256, 192]. -/
theorem mm_proj (l : FVec Ideal S256x1024 .bf16) (r : FVec Ideal S192x1024 .bf16) (i : Fin 256) (j : Fin 192) :
    matmul dot_S256x1024_S192x1024_S256x192_1_1_0_0_n_n none l r (constant (F := Ideal) S256x192 .f32 0x00000000#32) (ix2 i j)
      = ∑ k : Fin 1024, l (ix2 i k) * r (ix2 j k) :=
  matmulT_zero_apply dot_S256x1024_S192x1024_S256x192_1_1_0_0_n_n none rfl rfl
    (fun y q => by
      unfold DotDims.lhsIdx
      rw [dif_neg (show ¬(0 : Fin S256x1024.rank) ∈ dot_S256x1024_S192x1024_S256x192_1_1_0_0_n_n.lhsBatch by decide),
        dif_pos (show (0 : Fin S256x1024.rank) ∈ dot_S256x1024_S192x1024_S256x192_1_1_0_0_n_n.lhsNonContracting by decide)]
      rfl)
    (fun y q => dot_S256x1024_S192x1024_S256x192_1_1_0_0_n_n.lhsIdx_val_of_single rfl y q)
    (fun y q => by
      unfold DotDims.rhsIdx
      rw [dif_neg (show ¬(0 : Fin S192x1024.rank) ∈ dot_S256x1024_S192x1024_S256x192_1_1_0_0_n_n.rhsBatch by decide),
        dif_pos (show (0 : Fin S192x1024.rank) ∈ dot_S256x1024_S192x1024_S256x192_1_1_0_0_n_n.rhsNonContracting by decide)]
      rfl)
    (fun y q => dot_S256x1024_S192x1024_S256x192_1_1_0_0_n_n.rhsIdx_val_of_single rfl y q)
    l r i j

/-- [256, 32] × [32, 32] → [256, 32]. -/
theorem mm_lin (l : FVec Ideal S256x32 .bf16) (r : FVec Ideal S32x32 .bf16) (i : Fin 256) (j : Fin 32) :
    matmul dot_S256x32_S32x32_S256x32_1_1_0_0_n_n none l r (constant (F := Ideal) S256x32 .f32 0x00000000#32) (ix2 i j)
      = ∑ k : Fin 32, l (ix2 i k) * r (ix2 j k) :=
  matmulT_zero_apply dot_S256x32_S32x32_S256x32_1_1_0_0_n_n none rfl rfl
    (fun y q => by
      unfold DotDims.lhsIdx
      rw [dif_neg (show ¬(0 : Fin S256x32.rank) ∈ dot_S256x32_S32x32_S256x32_1_1_0_0_n_n.lhsBatch by decide),
        dif_pos (show (0 : Fin S256x32.rank) ∈ dot_S256x32_S32x32_S256x32_1_1_0_0_n_n.lhsNonContracting by decide)]
      rfl)
    (fun y q => dot_S256x32_S32x32_S256x32_1_1_0_0_n_n.lhsIdx_val_of_single rfl y q)
    (fun y q => by
      unfold DotDims.rhsIdx
      rw [dif_neg (show ¬(0 : Fin S32x32.rank) ∈ dot_S256x32_S32x32_S256x32_1_1_0_0_n_n.rhsBatch by decide),
        dif_pos (show (0 : Fin S32x32.rank) ∈ dot_S256x32_S32x32_S256x32_1_1_0_0_n_n.rhsNonContracting by decide)]
      rfl)
    (fun y q => dot_S256x32_S32x32_S256x32_1_1_0_0_n_n.rhsIdx_val_of_single rfl y q)
    l r i j

/-- [256, 1024] × [32, 1024] → [256, 32]. -/
theorem mm_quad (l : FVec Ideal S256x1024 .bf16) (r : FVec Ideal S32x1024 .bf16) (i : Fin 256) (j : Fin 32) :
    matmul dot_S256x1024_S32x1024_S256x32_1_1_0_0_n_n none l r (constant (F := Ideal) S256x32 .f32 0x00000000#32) (ix2 i j)
      = ∑ k : Fin 1024, l (ix2 i k) * r (ix2 j k) :=
  matmulT_zero_apply dot_S256x1024_S32x1024_S256x32_1_1_0_0_n_n none rfl rfl
    (fun y q => by
      unfold DotDims.lhsIdx
      rw [dif_neg (show ¬(0 : Fin S256x1024.rank) ∈ dot_S256x1024_S32x1024_S256x32_1_1_0_0_n_n.lhsBatch by decide),
        dif_pos (show (0 : Fin S256x1024.rank) ∈ dot_S256x1024_S32x1024_S256x32_1_1_0_0_n_n.lhsNonContracting by decide)]
      rfl)
    (fun y q => dot_S256x1024_S32x1024_S256x32_1_1_0_0_n_n.lhsIdx_val_of_single rfl y q)
    (fun y q => by
      unfold DotDims.rhsIdx
      rw [dif_neg (show ¬(0 : Fin S32x1024.rank) ∈ dot_S256x1024_S32x1024_S256x32_1_1_0_0_n_n.rhsBatch by decide),
        dif_pos (show (0 : Fin S32x1024.rank) ∈ dot_S256x1024_S32x1024_S256x32_1_1_0_0_n_n.rhsNonContracting by decide)]
      rfl)
    (fun y q => dot_S256x1024_S32x1024_S256x32_1_1_0_0_n_n.rhsIdx_val_of_single rfl y q)
    l r i j

/-- [256, 1024] × [1024, 1024] → [256, 1024]. -/
theorem mm_cub (l : FVec Ideal S256x1024 .bf16) (r : FVec Ideal S1024x1024 .bf16) (i : Fin 256) (j : Fin 1024) :
    matmul dot_S256x1024_S1024x1024_S256x1024_1_1_0_0_n_n none l r (constant (F := Ideal) S256x1024 .f32 0x00000000#32) (ix2 i j)
      = ∑ k : Fin 1024, l (ix2 i k) * r (ix2 j k) :=
  matmulT_zero_apply dot_S256x1024_S1024x1024_S256x1024_1_1_0_0_n_n none rfl rfl
    (fun y q => by
      unfold DotDims.lhsIdx
      rw [dif_neg (show ¬(0 : Fin S256x1024.rank) ∈ dot_S256x1024_S1024x1024_S256x1024_1_1_0_0_n_n.lhsBatch by decide),
        dif_pos (show (0 : Fin S256x1024.rank) ∈ dot_S256x1024_S1024x1024_S256x1024_1_1_0_0_n_n.lhsNonContracting by decide)]
      rfl)
    (fun y q => dot_S256x1024_S1024x1024_S256x1024_1_1_0_0_n_n.lhsIdx_val_of_single rfl y q)
    (fun y q => by
      unfold DotDims.rhsIdx
      rw [dif_neg (show ¬(0 : Fin S1024x1024.rank) ∈ dot_S256x1024_S1024x1024_S256x1024_1_1_0_0_n_n.rhsBatch by decide),
        dif_pos (show (0 : Fin S1024x1024.rank) ∈ dot_S256x1024_S1024x1024_S256x1024_1_1_0_0_n_n.rhsNonContracting by decide)]
      rfl)
    (fun y q => dot_S256x1024_S1024x1024_S256x1024_1_1_0_0_n_n.rhsIdx_val_of_single rfl y q)
    l r i j

/-- [256, 96] × [1024, 96] → [256, 1024]. -/
theorem mm_out (l : FVec Ideal S256x96 .bf16) (r : FVec Ideal S1024x96 .bf16) (i : Fin 256) (j : Fin 1024) :
    matmul dot_S256x96_S1024x96_S256x1024_1_1_0_0_n_n none l r (constant (F := Ideal) S256x1024 .f32 0x00000000#32) (ix2 i j)
      = ∑ k : Fin 96, l (ix2 i k) * r (ix2 j k) :=
  matmulT_zero_apply dot_S256x96_S1024x96_S256x1024_1_1_0_0_n_n none rfl rfl
    (fun y q => by
      unfold DotDims.lhsIdx
      rw [dif_neg (show ¬(0 : Fin S256x96.rank) ∈ dot_S256x96_S1024x96_S256x1024_1_1_0_0_n_n.lhsBatch by decide),
        dif_pos (show (0 : Fin S256x96.rank) ∈ dot_S256x96_S1024x96_S256x1024_1_1_0_0_n_n.lhsNonContracting by decide)]
      rfl)
    (fun y q => dot_S256x96_S1024x96_S256x1024_1_1_0_0_n_n.lhsIdx_val_of_single rfl y q)
    (fun y q => by
      unfold DotDims.rhsIdx
      rw [dif_neg (show ¬(0 : Fin S1024x96.rank) ∈ dot_S256x96_S1024x96_S256x1024_1_1_0_0_n_n.rhsBatch by decide),
        dif_pos (show (0 : Fin S1024x96.rank) ∈ dot_S256x96_S1024x96_S256x1024_1_1_0_0_n_n.rhsNonContracting by decide)]
      rfl)
    (fun y q => dot_S256x96_S1024x96_S256x1024_1_1_0_0_n_n.rhsIdx_val_of_single rfl y q)
    l r i j

/-! ## The closed forms -/

variable (x0 : Vec Ideal S256x1024 .f32) (x1 : Vec Ideal S1x1024 .f32) (x2 : Vec Ideal S192x1024 .bf16)
  (x3 : Vec Ideal S1024x96 .bf16) (x4 : Vec Ideal S32x32 .bf16) (x5 : Vec Ideal S32x1024 .bf16)
  (x6 : Vec Ideal S1024x1024 .bf16)

/-- z = X · Istackᵀ. -/
def zc (p : Fin 256) (j : Fin 192) : EReal := ∑ i : Fin 1024, x0 (ix2 p i) * x2 (ix2 j i)
/-- t₀ = z₀ · G₀ᵀ. -/
def t0 (p : Fin 256) (r : Fin 32) : EReal := ∑ a : Fin 32, zc x0 x2 p ⟨a.val, by omega⟩ * x4 (ix2 r a)
/-- t₁ = (z₂ ⊗ z₁) · G₁ᵀ, the pair (a₁, a₀) at column a₁ · 32 + a₀. -/
def t1 (p : Fin 256) (r : Fin 32) : EReal := ∑ k : Fin 1024, (zc x0 x2 p ⟨64 + k.val / 32, by omega⟩ * zc x0 x2 p ⟨32 + k.val % 32, by omega⟩) * x5 (ix2 r k)
/-- (z₄ ⊗ z₃) · G₂ᵀ. -/
def h2 (p : Fin 256) (q : Fin 1024) : EReal := ∑ k : Fin 1024, (zc x0 x2 p ⟨128 + k.val / 32, by omega⟩ * zc x0 x2 p ⟨96 + k.val % 32, by omega⟩) * x6 (ix2 q k)
/-- t₂: the columns r · 32 + a of the former against z₅, summed over a. -/
def t2 (p : Fin 256) (r : Fin 32) : EReal := ∑ a : Fin 32, h2 x0 x2 x6 p ⟨r.val * 32 + a.val, by omega⟩ * zc x0 x2 p ⟨160 + a.val, by omega⟩
/-- The three terms side by side. -/
def tcat (p : Fin 256) (c : Fin 96) : EReal := if h : c.val < 32 then t0 x0 x2 x4 p ⟨c.val, h⟩ else if h' : c.val < 64 then t1 x0 x2 x5 p ⟨c.val - 32, by omega⟩ else t2 x0 x2 x6 p ⟨c.val - 64, by omega⟩

/-! ## The body, stage by stage -/

/-- z as the body computes it: X rounded (the identity here) against the stacked projections. -/
def proj : FVec Ideal S256x192 .f32 :=
  matmul (φ₂ := .bf16) dot_S256x1024_S192x1024_S256x192_1_1_0_0_n_n none (truncf .bf16 x0 bitsLt_bf16_f32)
    (shapeCast S192x1024 x2 shapeCasts_S192x1024_S192x1024) (constant (F := Ideal) S256x192 .f32 0x00000000#32)

theorem proj_at (p : Fin 256) (j : Fin 192) : proj x0 x2 (ix2 p j) = zc x0 x2 p j := by
  unfold proj zc
  rw [shapeCast_self]
  exact mm_proj _ _ p j

/-- z₀: columns 0 to 31 of z. -/
def blk0 : FVec Ideal S256x32 .f32 :=
  extractStridedSlice S256x32 ![0, 0] (proj x0 x2) slices_S256x192_o0_0_S256x32
theorem blk0_at (p : Fin 256) (a : Fin 32) : blk0 x0 x2 (ix2 p a) = zc x0 x2 p ⟨a.val, by omega⟩ :=
  (slice2_axis1_apply 0 (proj x0 x2) slices_S256x192_o0_0_S256x32 p a ⟨a.val, by omega⟩ (Nat.zero_add _).symm).trans
    (proj_at x0 x2 p _)

/-- z₁: columns 32 to 63 of z. -/
def blk1 : FVec Ideal S256x32 .f32 :=
  extractStridedSlice S256x32 ![0, 32] (proj x0 x2) slices_S256x192_o0_32_S256x32
theorem blk1_at (p : Fin 256) (a : Fin 32) : blk1 x0 x2 (ix2 p a) = zc x0 x2 p ⟨32 + a.val, by omega⟩ :=
  (slice2_axis1_apply 32 (proj x0 x2) slices_S256x192_o0_32_S256x32 p a ⟨32 + a.val, by omega⟩ rfl).trans
    (proj_at x0 x2 p _)

/-- z₂: columns 64 to 95 of z. -/
def blk2 : FVec Ideal S256x32 .f32 :=
  extractStridedSlice S256x32 ![0, 64] (proj x0 x2) slices_S256x192_o0_64_S256x32
theorem blk2_at (p : Fin 256) (a : Fin 32) : blk2 x0 x2 (ix2 p a) = zc x0 x2 p ⟨64 + a.val, by omega⟩ :=
  (slice2_axis1_apply 64 (proj x0 x2) slices_S256x192_o0_64_S256x32 p a ⟨64 + a.val, by omega⟩ rfl).trans
    (proj_at x0 x2 p _)

/-- z₃: columns 96 to 127 of z. -/
def blk3 : FVec Ideal S256x32 .f32 :=
  extractStridedSlice S256x32 ![0, 96] (proj x0 x2) slices_S256x192_o0_96_S256x32
theorem blk3_at (p : Fin 256) (a : Fin 32) : blk3 x0 x2 (ix2 p a) = zc x0 x2 p ⟨96 + a.val, by omega⟩ :=
  (slice2_axis1_apply 96 (proj x0 x2) slices_S256x192_o0_96_S256x32 p a ⟨96 + a.val, by omega⟩ rfl).trans
    (proj_at x0 x2 p _)

/-- z₄: columns 128 to 159 of z. -/
def blk4 : FVec Ideal S256x32 .f32 :=
  extractStridedSlice S256x32 ![0, 128] (proj x0 x2) slices_S256x192_o0_128_S256x32
theorem blk4_at (p : Fin 256) (a : Fin 32) : blk4 x0 x2 (ix2 p a) = zc x0 x2 p ⟨128 + a.val, by omega⟩ :=
  (slice2_axis1_apply 128 (proj x0 x2) slices_S256x192_o0_128_S256x32 p a ⟨128 + a.val, by omega⟩ rfl).trans
    (proj_at x0 x2 p _)

/-- z₅: columns 160 to 191 of z. -/
def blk5 : FVec Ideal S256x32 .f32 :=
  extractStridedSlice S256x32 ![0, 160] (proj x0 x2) slices_S256x192_o0_160_S256x32
theorem blk5_at (p : Fin 256) (a : Fin 32) : blk5 x0 x2 (ix2 p a) = zc x0 x2 p ⟨160 + a.val, by omega⟩ :=
  (slice2_axis1_apply 160 (proj x0 x2) slices_S256x192_o0_160_S256x32 p a ⟨160 + a.val, by omega⟩ rfl).trans
    (proj_at x0 x2 p _)

/-- The row-wise outer product u ⊗ w of two [256, 32] matrices, flattened: u along a middle axis, w along the last one,
    multiplied entry by entry at [256, 32, 32], the last two axes then merged. -/
def outer (u w : FVec Ideal S256x32 .f32) : FVec Ideal S256x1024 .f32 :=
  shapeCast S256x1024
    (mulf (broadcastTo S256x32x32 (shapeCast S256x32x1 u shapeCasts_S256x32_S256x32x1) broadcasts_S256x32x1_S256x32x32)
      (broadcastTo S256x32x32 (shapeCast S256x1x32 w shapeCasts_S256x32_S256x1x32) broadcasts_S256x1x32_S256x32x32))
    shapeCasts_S256x32x32_S256x1024

/-- Column k of u ⊗ w is the pair (k / 32, k % 32). -/
theorem outer_at (u w : FVec Ideal S256x32 .f32) (p : Fin 256) (k : Fin 1024) :
    outer u w (ix2 p k) = u (ix2 p ⟨k.val / 32, by omega⟩) * w (ix2 p ⟨k.val % 32, by omega⟩) := by
  unfold outer
  refine (shapeCast_abc_an_apply (a := 256) (b := 32) (c := 32) (n := 1024) _ _ (by decide) p k ⟨k.val / 32, by omega⟩ ⟨k.val % 32, by omega⟩
    (by show k.val = k.val / 32 * 32 + k.val % 32; omega)).trans ?_
  exact congrArg₂ (· * ·)
    ((broadcastTo_ab1_abc_apply _ _ p _ _).trans (shapeCast_ab_ab1_apply u _ p _ 0))
    ((broadcastTo_a1c_abc_apply _ _ p _ _).trans (shapeCast_ac_a1c_apply w _ p 0 _))

/-- t₀ as the body computes it. -/
def lin : FVec Ideal S256x32 .f32 :=
  matmul (φ₂ := .bf16) dot_S256x32_S32x32_S256x32_1_1_0_0_n_n none (truncf .bf16 (blk0 x0 x2) bitsLt_bf16_f32)
    (shapeCast S32x32 x4 shapeCasts_S32x32_S32x32) (constant (F := Ideal) S256x32 .f32 0x00000000#32)

theorem lin_at (p : Fin 256) (r : Fin 32) : lin x0 x2 x4 (ix2 p r) = t0 x0 x2 x4 p r := by
  unfold lin t0
  rw [shapeCast_self]
  refine (mm_lin _ _ p r).trans (Finset.sum_congr rfl fun a _ => ?_)
  exact congrArg (· * x4 (ix2 r a)) (blk0_at x0 x2 p a)

/-- t₁ as the body computes it. -/
def quad : FVec Ideal S256x32 .f32 :=
  matmul (φ₂ := .bf16) dot_S256x1024_S32x1024_S256x32_1_1_0_0_n_n none (truncf .bf16 (outer (blk2 x0 x2) (blk1 x0 x2)) bitsLt_bf16_f32)
    (shapeCast S32x1024 x5 shapeCasts_S32x1024_S32x1024) (constant (F := Ideal) S256x32 .f32 0x00000000#32)

theorem quad_at (p : Fin 256) (r : Fin 32) : quad x0 x2 x5 (ix2 p r) = t1 x0 x2 x5 p r := by
  unfold quad t1
  rw [shapeCast_self]
  refine (mm_quad _ _ p r).trans (Finset.sum_congr rfl fun k _ => ?_)
  exact congrArg (· * x5 (ix2 r k))
    ((outer_at _ _ p k).trans (congrArg₂ (· * ·) (blk2_at x0 x2 p _) (blk1_at x0 x2 p _)))

/-- (z₄ ⊗ z₃) · G₂ᵀ as the body computes it. -/
def cubh : FVec Ideal S256x1024 .f32 :=
  matmul (φ₂ := .bf16) dot_S256x1024_S1024x1024_S256x1024_1_1_0_0_n_n none (truncf .bf16 (outer (blk4 x0 x2) (blk3 x0 x2)) bitsLt_bf16_f32)
    (shapeCast S1024x1024 x6 shapeCasts_S1024x1024_S1024x1024) (constant (F := Ideal) S256x1024 .f32 0x00000000#32)

theorem cubh_at (p : Fin 256) (q : Fin 1024) : cubh x0 x2 x6 (ix2 p q) = h2 x0 x2 x6 p q := by
  unfold cubh h2
  rw [shapeCast_self]
  refine (mm_cub _ _ p q).trans (Finset.sum_congr rfl fun k _ => ?_)
  exact congrArg (· * x6 (ix2 q k))
    ((outer_at _ _ p k).trans (congrArg₂ (· * ·) (blk4_at x0 x2 p _) (blk3_at x0 x2 p _)))

/-- A sum over the last axis of a [256, 32, 32] array, started from the zero word, is the sum of its 32 entries there. -/
theorem sum_last_at (src : FVec Ideal S256x32x32 .f32) (p : Fin 256) (r : Fin 32) :
    multiReduction .add [2] S256x32 src 0x00000000#32 reduces_S256x32x32_S256x32 (.inl rfl) rfl (ix2 p r)
      = ∑ a : Fin 32, src (ix3 p r a) :=
  (Ideal.multiReduction_add_single src 0x00000000#32 reduces_S256x32x32_S256x32 (.inl rfl) rfl (ix2 p r)).trans
    (Finset.sum_congr rfl fun a _ => congrArg src (funext fun ax => Fin.ext (by
      match ax with
      | ⟨0, _⟩ => rfl
      | ⟨1, _⟩ => rfl
      | ⟨2, _⟩ => rfl)))

/-- t₂ as the body computes it: the [256, 1024] product reshaped to [256, 32, 32], times z₅ along the last axis, summed
    over that axis. -/
def cub : FVec Ideal S256x32 .f32 :=
  multiReduction .add [2] S256x32
    (mulf (shapeCast S256x32x32 (cubh x0 x2 x6) shapeCasts_S256x1024_S256x32x32)
      (broadcastTo S256x32x32 (shapeCast S256x1x32 (blk5 x0 x2) shapeCasts_S256x32_S256x1x32) broadcasts_S256x1x32_S256x32x32))
    0x00000000#32 reduces_S256x32x32_S256x32 (.inl rfl) rfl

theorem cub_at (p : Fin 256) (r : Fin 32) : cub x0 x2 x6 (ix2 p r) = t2 x0 x2 x6 p r := by
  unfold cub t2
  refine (sum_last_at _ p r).trans (Finset.sum_congr rfl fun a _ => ?_)
  exact congrArg₂ (· * ·)
    ((shapeCast_an_abc_eq (a := 256) (b := 32) (c := 32) (n := 1024) _ _ (by decide) p r a).trans (cubh_at x0 x2 x6 p _))
    ((broadcastTo_a1c_abc_apply _ _ p r a).trans ((shapeCast_ac_a1c_apply _ _ p 0 a).trans (blk5_at x0 x2 p a)))

/-! ## The two payloads -/

/-- The first payload is the three terms as the body computes them, laid side by side: the same expression. -/
theorem pay2_eq : k0_pay2 (F := Ideal) x0 x2 x4 x5 x6
    = concatenate S256x96 1 [⟨S256x32, lin x0 x2 x4⟩, ⟨S256x32, quad x0 x2 x5⟩, ⟨S256x32, cub x0 x2 x6⟩]
        concatenates_S256x32_S256x32_S256x32_S256x96_d1 := rfl

/-- Column c of the first payload lies in the block c / 32 names. -/
theorem pay2_at (p : Fin 256) (c : Fin 96) :
    k0_pay2 (F := Ideal) x0 x2 x4 x5 x6 (ix2 p c) = tcat x0 x2 x4 x5 x6 p c := by
  rw [pay2_eq]
  unfold tcat
  by_cases h : c.val < 32
  · rw [dif_pos h]
    exact (concatenate3_cols_apply_fst _ _ _ _ p c ⟨c.val, h⟩ rfl).trans (lin_at x0 x2 x4 p _)
  · rw [dif_neg h]
    by_cases h' : c.val < 64
    · rw [dif_pos h']
      exact (concatenate3_cols_apply_snd _ _ _ _ p c ⟨c.val - 32, by omega⟩
        (by show 32 + (c.val - 32) = c.val; omega)).trans (quad_at x0 x2 x5 p _)
    · rw [dif_neg h']
      exact (concatenate3_cols_apply_trd _ _ _ _ p c ⟨c.val - 64, by omega⟩
        (by show 32 + 32 + (c.val - 64) = c.val; omega)).trans (cub_at x0 x2 x6 p _)

/-- The stored value at (p, o): the constant row's entry o plus the three terms against row o of the output matrix. -/
theorem pay_apply (p : Fin 256) (o : Fin 1024) :
    k0_pay1 (F := Ideal) (k0_pay2 (F := Ideal) x0 x2 x4 x5 x6) x3 x1 (ix2 p o)
      = x1 (ix2 0 o) + ∑ c : Fin 96, tcat x0 x2 x4 x5 x6 p c * x3 (ix2 o c) := by
  unfold k0_pay1
  show broadcastTo S256x1024 (shapeCast S1x1024 x1 shapeCasts_S1x1024_S1x1024) broadcasts_S1x1024_S256x1024 (ix2 p o)
      + matmul (φ₂ := .bf16) dot_S256x96_S1024x96_S256x1024_1_1_0_0_n_n none
          (truncf .bf16 (k0_pay2 (F := Ideal) x0 x2 x4 x5 x6) bitsLt_bf16_f32)
          (shapeCast S1024x96 x3 shapeCasts_S1024x96_S1024x96) (constant (F := Ideal) S256x1024 .f32 0x00000000#32) (ix2 p o) = _
  rw [shapeCast_self, shapeCast_self]
  refine congrArg₂ (· + ·) (broadcastTo_1b_ab_apply x1 _ p o) ((mm_out _ _ p o).trans (Finset.sum_congr rfl fun c _ => ?_))
  exact congrArg (· * x3 (ix2 o c)) (pay2_at x0 x2 x4 x5 x6 p c)

end Cert.KernelIdeal.At

end
-- ==== Proof.KernelSpec.lean ====
/-
  The kernel body's entry as the abstract expression of the specification. When the row of X, the constant's entry, the
  six projection blocks, the three blocks of the output matrix's row and the three core matrices are named as plain
  functions of their coordinates, the entry read off the body is, term for term, the specification's kernel-side
  expression: the sum over 96 columns splits into its three blocks of 32, each column of a block is one of the three
  terms, and each term's factors are the named functions at the split coordinates k / 32, k % 32 and r · 32 + a. No
  algebraic law is used: only equal summands under equal sums.
-/
import proofs.«151261_j26113401160148_2_alg».proof.Proof.KernelAt
import proofs.«151261_j26113401160148_2_alg».proof.Proof.Spec

noncomputable section

open scoped BigOperators

namespace Cert.KernelIdeal.At

open Idealize.ShloMosaic Idealize.ShloMosaic.ValueIdx Cert.KernelIdeal Cert.KernelIdeal.Gen
open Cert.Spec (lo hi join projK kerT0 kerT1 kerH2 kerT2 kerY sum_three_blocks)

/-- A column of z is a projection of the row, once the row of X and that row of the stacked projections are named. -/
theorem zc_eq (x0 : Vec Ideal S256x1024 .f32) (x2 : Vec Ideal S192x1024 .bf16) (xr : Fin 1024 → EReal) (p : Fin 256)
    (hx : ∀ i, x0 (ix2 p i) = xr i) (j : Fin 192) (I : Fin 32 → Fin 1024 → EReal) (a : Fin 32)
    (hI : ∀ i, x2 (ix2 j i) = I a i) : zc x0 x2 p j = projK xr I a := by
  unfold zc projK
  exact Finset.sum_congr rfl fun i _ => congrArg₂ (· * ·) (hx i) (hI i)

section Blocks
variable (x0 : Vec Ideal S256x1024 .f32) (x1 : Vec Ideal S1x1024 .f32) (x2 : Vec Ideal S192x1024 .bf16)
    (x3 : Vec Ideal S1024x96 .bf16) (x4 : Vec Ideal S32x32 .bf16) (x5 : Vec Ideal S32x1024 .bf16)
    (x6 : Vec Ideal S1024x1024 .bf16) (p : Fin 256)

/-- A column of the first block is a column of t₀. -/
theorem tcat_fst (r : Fin 32) : tcat x0 x2 x4 x5 x6 p ⟨r.val, by omega⟩ = t0 x0 x2 x4 p r := by
  unfold tcat
  exact dif_pos (show (⟨r.val, by omega⟩ : Fin 96).val < 32 from r.isLt)

/-- A column of the second block is a column of t₁. -/
theorem tcat_snd (r : Fin 32) : tcat x0 x2 x4 x5 x6 p ⟨32 + r.val, by omega⟩ = t1 x0 x2 x5 p r := by
  unfold tcat
  refine (dif_neg (show ¬(⟨32 + r.val, by omega⟩ : Fin 96).val < 32 from by show ¬32 + r.val < 32; omega)).trans ?_
  refine (dif_pos (show (⟨32 + r.val, by omega⟩ : Fin 96).val < 64 from by show 32 + r.val < 64; omega)).trans ?_
  exact congrArg (t1 x0 x2 x5 p) (Fin.ext (by show 32 + r.val - 32 = r.val; omega))

/-- A column of the third block is a column of t₂. -/
theorem tcat_trd (r : Fin 32) : tcat x0 x2 x4 x5 x6 p ⟨64 + r.val, by omega⟩ = t2 x0 x2 x6 p r := by
  unfold tcat
  refine (dif_neg (show ¬(⟨64 + r.val, by omega⟩ : Fin 96).val < 32 from by show ¬64 + r.val < 32; omega)).trans ?_
  refine (dif_neg (show ¬(⟨64 + r.val, by omega⟩ : Fin 96).val < 64 from by show ¬64 + r.val < 64; omega)).trans ?_
  exact congrArg (t2 x0 x2 x6 p) (Fin.ext (by show 64 + r.val - 64 = r.val; omega))

end Blocks

/-- The entry read off the body is the specification's kernel-side expression of the named data. -/
theorem kernel_entry (x0 : Vec Ideal S256x1024 .f32) (x1 : Vec Ideal S1x1024 .f32) (x2 : Vec Ideal S192x1024 .bf16)
    (x3 : Vec Ideal S1024x96 .bf16) (x4 : Vec Ideal S32x32 .bf16) (x5 : Vec Ideal S32x1024 .bf16)
    (x6 : Vec Ideal S1024x1024 .bf16)
    (xr : Fin 1024 → EReal) (cst : EReal) (O0 O1 O2 : Fin 32 → EReal)
    (I0 I10 I11 I20 I21 I22 : Fin 32 → Fin 1024 → EReal) (G0 : Fin 32 → Fin 32 → EReal) (G1 : Fin 32 → Fin 1024 → EReal)
    (G2 : Fin 32 → Fin 32768 → EReal) (p : Fin 256) (o : Fin 1024)
    (hx : ∀ i, x0 (ix2 p i) = xr i) (h1 : x1 (ix2 0 o) = cst)
    (h20 : ∀ (a : Fin 32) i, x2 (ix2 ⟨a.val, by omega⟩ i) = I0 a i)
    (h21 : ∀ (a : Fin 32) i, x2 (ix2 ⟨32 + a.val, by omega⟩ i) = I10 a i)
    (h22 : ∀ (a : Fin 32) i, x2 (ix2 ⟨64 + a.val, by omega⟩ i) = I11 a i)
    (h23 : ∀ (a : Fin 32) i, x2 (ix2 ⟨96 + a.val, by omega⟩ i) = I20 a i)
    (h24 : ∀ (a : Fin 32) i, x2 (ix2 ⟨128 + a.val, by omega⟩ i) = I21 a i)
    (h25 : ∀ (a : Fin 32) i, x2 (ix2 ⟨160 + a.val, by omega⟩ i) = I22 a i)
    (h30 : ∀ r : Fin 32, x3 (ix2 o ⟨r.val, by omega⟩) = O0 r)
    (h31 : ∀ r : Fin 32, x3 (ix2 o ⟨32 + r.val, by omega⟩) = O1 r)
    (h32 : ∀ r : Fin 32, x3 (ix2 o ⟨64 + r.val, by omega⟩) = O2 r)
    (h4 : ∀ r a, x4 (ix2 r a) = G0 r a) (h5 : ∀ r k, x5 (ix2 r k) = G1 r k)
    (h6 : ∀ (r a : Fin 32) (k : Fin 1024), x6 (ix2 ⟨r.val * 32 + a.val, by omega⟩ k) = G2 r (Cert.Spec.join a k)) :
    x1 (ix2 0 o) + ∑ c : Fin 96, tcat x0 x2 x4 x5 x6 p c * x3 (ix2 o c)
      = kerY xr cst O0 O1 O2 I0 I10 I11 I20 I21 I22 G0 G1 G2 := by
  have z0 : ∀ a : Fin 32, zc x0 x2 p ⟨a.val, by omega⟩ = projK xr I0 a := fun a => zc_eq x0 x2 xr p hx _ I0 a (h20 a)
  have z1 : ∀ a : Fin 32, zc x0 x2 p ⟨32 + a.val, by omega⟩ = projK xr I10 a := fun a => zc_eq x0 x2 xr p hx _ I10 a (h21 a)
  have z2 : ∀ a : Fin 32, zc x0 x2 p ⟨64 + a.val, by omega⟩ = projK xr I11 a := fun a => zc_eq x0 x2 xr p hx _ I11 a (h22 a)
  have z3 : ∀ a : Fin 32, zc x0 x2 p ⟨96 + a.val, by omega⟩ = projK xr I20 a := fun a => zc_eq x0 x2 xr p hx _ I20 a (h23 a)
  have z4 : ∀ a : Fin 32, zc x0 x2 p ⟨128 + a.val, by omega⟩ = projK xr I21 a := fun a => zc_eq x0 x2 xr p hx _ I21 a (h24 a)
  have z5 : ∀ a : Fin 32, zc x0 x2 p ⟨160 + a.val, by omega⟩ = projK xr I22 a := fun a => zc_eq x0 x2 xr p hx _ I22 a (h25 a)
  have e0 : ∀ r : Fin 32, t0 x0 x2 x4 p r = kerT0 xr I0 G0 r := fun r => by
    unfold t0 kerT0
    exact Finset.sum_congr rfl fun a _ => congrArg₂ (· * ·) (z0 a) (h4 r a)
  have e1 : ∀ r : Fin 32, t1 x0 x2 x5 p r = kerT1 xr I10 I11 G1 r := fun r => by
    unfold t1 kerT1
    exact Finset.sum_congr rfl fun k _ =>
      congrArg₂ (· * ·) (congrArg₂ (· * ·) (z2 (hi k)) (z1 (lo k))) (h5 r k)
  have eh : ∀ r a : Fin 32, h2 x0 x2 x6 p ⟨r.val * 32 + a.val, by omega⟩ = kerH2 xr I20 I21 G2 r a := fun r a => by
    unfold h2 kerH2
    exact Finset.sum_congr rfl fun k _ =>
      congrArg₂ (· * ·) (congrArg₂ (· * ·) (z4 (hi k)) (z3 (lo k))) (h6 r a k)
  have e2 : ∀ r : Fin 32, t2 x0 x2 x6 p r = kerT2 xr I20 I21 I22 G2 r := fun r => by
    unfold t2 kerT2
    exact Finset.sum_congr rfl fun a _ => congrArg₂ (· * ·) (eh r a) (z5 a)
  rw [h1, sum_three_blocks (fun c => tcat x0 x2 x4 x5 x6 p c * x3 (ix2 o c))]
  unfold kerY
  refine congrArg (cst + ·) (congrArg₂ (· + ·) (Finset.sum_congr rfl fun r _ => ?_)
    (congrArg₂ (· + ·) (Finset.sum_congr rfl fun r _ => ?_) (Finset.sum_congr rfl fun r _ => ?_)))
  · exact congrArg₂ (· * ·) ((tcat_fst x0 x2 x4 x5 x6 p r).trans (e0 r)) (h30 r)
  · exact congrArg₂ (· * ·) ((tcat_snd x0 x2 x4 x5 x6 p r).trans (e1 r)) (h31 r)
  · exact congrArg₂ (· * ·) ((tcat_trd x0 x2 x4 x5 x6 p r).trans (e2 r)) (h32 r)

/-- The stored value at (p, o) is the specification's kernel-side expression of the named data. -/
theorem pay_spec (x0 : Vec Ideal S256x1024 .f32) (x1 : Vec Ideal S1x1024 .f32) (x2 : Vec Ideal S192x1024 .bf16)
    (x3 : Vec Ideal S1024x96 .bf16) (x4 : Vec Ideal S32x32 .bf16) (x5 : Vec Ideal S32x1024 .bf16)
    (x6 : Vec Ideal S1024x1024 .bf16)
    (xr : Fin 1024 → EReal) (cst : EReal) (O0 O1 O2 : Fin 32 → EReal)
    (I0 I10 I11 I20 I21 I22 : Fin 32 → Fin 1024 → EReal) (G0 : Fin 32 → Fin 32 → EReal) (G1 : Fin 32 → Fin 1024 → EReal)
    (G2 : Fin 32 → Fin 32768 → EReal) (p : Fin 256) (o : Fin 1024)
    (hx : ∀ i, x0 (ix2 p i) = xr i) (h1 : x1 (ix2 0 o) = cst)
    (h20 : ∀ (a : Fin 32) i, x2 (ix2 ⟨a.val, by omega⟩ i) = I0 a i)
    (h21 : ∀ (a : Fin 32) i, x2 (ix2 ⟨32 + a.val, by omega⟩ i) = I10 a i)
    (h22 : ∀ (a : Fin 32) i, x2 (ix2 ⟨64 + a.val, by omega⟩ i) = I11 a i)
    (h23 : ∀ (a : Fin 32) i, x2 (ix2 ⟨96 + a.val, by omega⟩ i) = I20 a i)
    (h24 : ∀ (a : Fin 32) i, x2 (ix2 ⟨128 + a.val, by omega⟩ i) = I21 a i)
    (h25 : ∀ (a : Fin 32) i, x2 (ix2 ⟨160 + a.val, by omega⟩ i) = I22 a i)
    (h30 : ∀ r : Fin 32, x3 (ix2 o ⟨r.val, by omega⟩) = O0 r)
    (h31 : ∀ r : Fin 32, x3 (ix2 o ⟨32 + r.val, by omega⟩) = O1 r)
    (h32 : ∀ r : Fin 32, x3 (ix2 o ⟨64 + r.val, by omega⟩) = O2 r)
    (h4 : ∀ r a, x4 (ix2 r a) = G0 r a) (h5 : ∀ r k, x5 (ix2 r k) = G1 r k)
    (h6 : ∀ (r a : Fin 32) (k : Fin 1024), x6 (ix2 ⟨r.val * 32 + a.val, by omega⟩ k) = G2 r (Cert.Spec.join a k)) :
    k0_pay1 (F := Ideal) (k0_pay2 (F := Ideal) x0 x2 x4 x5 x6) x3 x1 (ix2 p o)
      = kerY xr cst O0 O1 O2 I0 I10 I11 I20 I21 I22 G0 G1 G2 :=
  (pay_apply x0 x1 x2 x3 x4 x5 x6 p o).trans
    (kernel_entry x0 x1 x2 x3 x4 x5 x6 xr cst O0 O1 O2 I0 I10 I11 I20 I21 I22 G0 G1 G2 p o hx h1 h20 h21 h22 h23 h24 h25
      h30 h31 h32 h4 h5 h6)

end Cert.KernelIdeal.At

end
-- ==== Proof.RefStages.lean ====
/-
  The reference's stages read at coordinates. Each projection `Z[a, b] = Σ_i I[a, i] · X[b, i]` comes out of a
  batched contraction, a slice of the batch and a cast; the outer products are broadcasts multiplied and flattened;
  the cores and the output factors are contractions over the first axis of a transposed operand; the result adds
  the constant row and the three orders one after the other.
-/
import proofs.«151261_j26113401160148_2_alg».proof.Proof.Gen.ReferenceIdeal.Read
import proofs.«151261_j26113401160148_2_alg».proof.Proof.Spec
import proofs.«151261_j26113401160148_2_alg».proof.Proof.LibIxVal

noncomputable section

namespace Cert.ReferenceIdeal.Coord

open Cert.ReferenceIdeal Cert.ReferenceIdeal.Read Idealize.ShloMosaic Idealize.ShloMosaic.ValueIdx Cert.Spec

/-- The row `b` of the input matrix. -/
abbrev row (x0 : FVec Ideal S4096x1024 .f32) (b : Fin 4096) : Fin 1024 → EReal := fun k => x0 (ix2 b k)

/-! ## The projections -/

theorem z5_at (x0 : FVec Ideal S4096x1024 .f32) (x5 : FVec Ideal S1x32x1024 .f32) (a : Fin 32) (b : Fin 4096) :
    val_main_v3 (F := Ideal) x0 x5 (ix2 a b) = proj (row x0 b) (fun a k => x5 (ix3 (⟨0, by omega⟩ : Fin 1) a k)) a := by
  rw [val_main_v3_apply, val_main_v2_apply]
  unfold proj
  refine Finset.sum_congr rfl fun k _ => ?_
  have ha := a.isLt
  have hb := b.isLt
  congr 2
  · ix_ext3
  · ix_ext2

theorem z60_at (x0 : FVec Ideal S4096x1024 .f32) (x6 : FVec Ideal S2x32x1024 .f32) (a : Fin 32) (b : Fin 4096) :
    val_main_v10 (F := Ideal) x0 x6 (ix2 a b) = proj (row x0 b) (fun a k => x6 (ix3 (⟨0, by omega⟩ : Fin 2) a k)) a := by
  rw [val_main_v10_apply, val_main_v9_apply, val_main_v8_apply]
  unfold proj
  refine Finset.sum_congr rfl fun k _ => ?_
  have ha := a.isLt
  have hb := b.isLt
  congr 2
  · ix_ext3
  · ix_ext2

theorem z61_at (x0 : FVec Ideal S4096x1024 .f32) (x6 : FVec Ideal S2x32x1024 .f32) (a : Fin 32) (b : Fin 4096) :
    val_main_v12 (F := Ideal) x0 x6 (ix2 a b) = proj (row x0 b) (fun a k => x6 (ix3 (⟨1, by omega⟩ : Fin 2) a k)) a := by
  rw [val_main_v12_apply, val_main_v11_apply, val_main_v8_apply]
  unfold proj
  refine Finset.sum_congr rfl fun k _ => ?_
  have ha := a.isLt
  have hb := b.isLt
  congr 2
  · ix_ext3
  · ix_ext2

theorem z70_at (x0 : FVec Ideal S4096x1024 .f32) (x7 : FVec Ideal S3x32x1024 .f32) (a : Fin 32) (b : Fin 4096) :
    val_main_v25 (F := Ideal) x0 x7 (ix2 a b) = proj (row x0 b) (fun a k => x7 (ix3 (⟨0, by omega⟩ : Fin 3) a k)) a := by
  rw [val_main_v25_apply, val_main_v24_apply, val_main_v23_apply]
  unfold proj
  refine Finset.sum_congr rfl fun k _ => ?_
  have ha := a.isLt
  have hb := b.isLt
  congr 2
  · ix_ext3
  · ix_ext2

theorem z71_at (x0 : FVec Ideal S4096x1024 .f32) (x7 : FVec Ideal S3x32x1024 .f32) (a : Fin 32) (b : Fin 4096) :
    val_main_v27 (F := Ideal) x0 x7 (ix2 a b) = proj (row x0 b) (fun a k => x7 (ix3 (⟨1, by omega⟩ : Fin 3) a k)) a := by
  rw [val_main_v27_apply, val_main_v26_apply, val_main_v23_apply]
  unfold proj
  refine Finset.sum_congr rfl fun k _ => ?_
  have ha := a.isLt
  have hb := b.isLt
  congr 2
  · ix_ext3
  · ix_ext2

theorem z72_at (x0 : FVec Ideal S4096x1024 .f32) (x7 : FVec Ideal S3x32x1024 .f32) (a : Fin 32) (b : Fin 4096) :
    val_main_v34 (F := Ideal) x0 x7 (ix2 a b) = proj (row x0 b) (fun a k => x7 (ix3 (⟨2, by omega⟩ : Fin 3) a k)) a := by
  rw [val_main_v34_apply, val_main_v33_apply, val_main_v23_apply]
  unfold proj
  refine Finset.sum_congr rfl fun k _ => ?_
  have ha := a.isLt
  have hb := b.isLt
  congr 2
  · ix_ext3
  · ix_ext2

/-! ## The outer products, flattened -/

/-- The order-1 outer product at flattened pair `k` is the product of the two projections at its coordinates. -/
theorem k1_at (x0 : FVec Ideal S4096x1024 .f32) (x6 : FVec Ideal S2x32x1024 .f32) (k : Fin 1024) (b : Fin 4096)
    (a0 a1 : Fin 32) (h0 : a0.val = k.val % 32) (h1 : a1.val = k.val / 32) :
    val_main_v18 (F := Ideal) x0 x6 (ix2 k b)
      = val_main_v10 (F := Ideal) x0 x6 (ix2 a0 b) * val_main_v12 (F := Ideal) x0 x6 (ix2 a1 b) := by
  rw [val_main_v18_apply, val_main_v17_apply, val_main_v15_apply, val_main_v14_apply, val_main_v16_apply,
    val_main_v13_apply, Ideal.mulf_def]
  have hk := k.isLt
  have hb := b.isLt
  congr 2
  · ix_ext2
  · ix_ext2

/-- The positions the order-2 outer product reads its three factors at, for flattened triple `k`. -/
theorem k2_inner0 (k : Fin 32768) (b : Fin 4096) (a0 : Fin 32) (h0 : a0.val = k.val % 32) :
    idx_main_v29 (idx_main_v30 (idx_main_v36 (idx_main_v37 (idx_main_v40 (ix2 k b))))) = ix2 a0 b := by
  have hk := k.isLt
  have hb := b.isLt
  ix_ext2
theorem k2_inner1 (k : Fin 32768) (b : Fin 4096) (a1 : Fin 32) (h1 : a1.val = k.val / 32 % 32) :
    idx_main_v28 (idx_main_v31 (idx_main_v36 (idx_main_v37 (idx_main_v40 (ix2 k b))))) = ix2 a1 b := by
  have hk := k.isLt
  have hb := b.isLt
  ix_ext2
theorem k2_outer (k : Fin 32768) (b : Fin 4096) (a2 : Fin 32) (h2 : a2.val = k.val / 1024) :
    idx_main_v35 (idx_main_v38 (idx_main_v40 (ix2 k b))) = ix2 a2 b := by
  have hk := k.isLt
  have hb := b.isLt
  ix_ext2

/-- The order-2 outer product at flattened triple `k` is the product of the three projections at its coordinates,
    the two inner ones first. -/
theorem k2_at (x0 : FVec Ideal S4096x1024 .f32) (x7 : FVec Ideal S3x32x1024 .f32) (k : Fin 32768) (b : Fin 4096)
    (a0 a1 a2 : Fin 32) (h0 : a0.val = k.val % 32) (h1 : a1.val = k.val / 32 % 32) (h2 : a2.val = k.val / 1024) :
    val_main_v40 (F := Ideal) x0 x7 (ix2 k b)
      = (val_main_v25 (F := Ideal) x0 x7 (ix2 a0 b) * val_main_v27 (F := Ideal) x0 x7 (ix2 a1 b))
        * val_main_v34 (F := Ideal) x0 x7 (ix2 a2 b) := by
  rw [val_main_v40_apply, val_main_v39_apply, val_main_v37_apply, val_main_v36_apply, val_main_v32_apply,
    val_main_v30_apply, val_main_v29_apply, val_main_v31_apply, val_main_v28_apply, val_main_v38_apply,
    val_main_v35_apply, Ideal.mulf_def, Ideal.mulf_def, k2_inner0 k b a0 h0, k2_inner1 k b a1 h1, k2_outer k b a2 h2]

/-! ## The cores -/

theorem t0_at (x0 : FVec Ideal S4096x1024 .f32) (x5 : FVec Ideal S1x32x1024 .f32) (x8 : FVec Ideal S32x32 .f32)
    (r : Fin 32) (b : Fin 4096) :
    val_main_v4 (F := Ideal) x0 x5 x8 (ix2 r b)
      = refT0 (row x0 b) (fun a k => x5 (ix3 (⟨0, by omega⟩ : Fin 1) a k)) (fun r a => x8 (ix2 r a)) r := by
  rw [val_main_v4_apply]
  unfold refT0
  refine Finset.sum_congr rfl fun a _ => ?_
  have e1 : lidx_main_v4 (ix2 r b) a = ix2 r a := by ix_ext2
  have e2 : ridx_main_v4 (ix2 r b) a = ix2 a b := by ix_ext2
  rw [e1, e2, z5_at]

theorem t1_at (x0 : FVec Ideal S4096x1024 .f32) (x6 : FVec Ideal S2x32x1024 .f32) (x9 : FVec Ideal S32x1024 .f32)
    (r : Fin 32) (b : Fin 4096) :
    val_main_v19 (F := Ideal) x0 x6 x9 (ix2 r b)
      = refT1 (row x0 b) (fun a k => x6 (ix3 (⟨0, by omega⟩ : Fin 2) a k)) (fun a k => x6 (ix3 (⟨1, by omega⟩ : Fin 2) a k))
          (fun r k => x9 (ix2 r k)) r := by
  rw [val_main_v19_apply]
  unfold refT1
  refine Finset.sum_congr rfl fun k _ => ?_
  have e1 : lidx_main_v19 (ix2 r b) k = ix2 r k := by ix_ext2
  have e2 : ridx_main_v19 (ix2 r b) k = ix2 k b := by ix_ext2
  rw [e1, e2, k1_at x0 x6 k b (lo k) (hi k) rfl rfl, z60_at, z61_at]

theorem t2_at (x0 : FVec Ideal S4096x1024 .f32) (x7 : FVec Ideal S3x32x1024 .f32) (x10 : FVec Ideal S32x32768 .f32)
    (r : Fin 32) (b : Fin 4096) :
    val_main_v41 (F := Ideal) x0 x7 x10 (ix2 r b)
      = refT2 (row x0 b) (fun a k => x7 (ix3 (⟨0, by omega⟩ : Fin 3) a k)) (fun a k => x7 (ix3 (⟨1, by omega⟩ : Fin 3) a k))
          (fun a k => x7 (ix3 (⟨2, by omega⟩ : Fin 3) a k)) (fun r k => x10 (ix2 r k)) r := by
  rw [val_main_v41_apply]
  unfold refT2
  refine Finset.sum_congr rfl fun k _ => ?_
  have e1 : lidx_main_v41 (ix2 r b) k = ix2 r k := by ix_ext2
  have e2 : ridx_main_v41 (ix2 r b) k = ix2 k b := by ix_ext2
  rw [e1, e2, k2_at x0 x7 k b (c0 k) (c1 k) (c2 k) rfl rfl rfl, z70_at, z71_at, z72_at]

/-! ## The result -/

/-- The reference's entry at row `b` and column `o`, as the specification's function of that row of the input
    matrix, that column's constant and output-factor rows, and the factor and core arrays. -/
theorem y_at (x0 : FVec Ideal S4096x1024 .f32) (x1 : FVec Ideal S1024 .f32) (x2 x3 x4 : FVec Ideal S1024x32 .f32)
    (x5 : FVec Ideal S1x32x1024 .f32) (x6 : FVec Ideal S2x32x1024 .f32) (x7 : FVec Ideal S3x32x1024 .f32)
    (x8 : FVec Ideal S32x32 .f32) (x9 : FVec Ideal S32x1024 .f32) (x10 : FVec Ideal S32x32768 .f32)
    (b : Fin 4096) (o : Fin 1024) :
    val_main_v44 (F := Ideal) x0 x1 x2 x3 x4 x5 x6 x7 x8 x9 x10 (ix2 b o)
      = refY (row x0 b) (x1 (ix1 o)) (fun r => x2 (ix2 o r)) (fun r => x3 (ix2 o r)) (fun r => x4 (ix2 o r))
          (fun a k => x5 (ix3 (⟨0, by omega⟩ : Fin 1) a k))
          (fun a k => x6 (ix3 (⟨0, by omega⟩ : Fin 2) a k)) (fun a k => x6 (ix3 (⟨1, by omega⟩ : Fin 2) a k))
          (fun a k => x7 (ix3 (⟨0, by omega⟩ : Fin 3) a k)) (fun a k => x7 (ix3 (⟨1, by omega⟩ : Fin 3) a k))
          (fun a k => x7 (ix3 (⟨2, by omega⟩ : Fin 3) a k))
          (fun r a => x8 (ix2 r a)) (fun r k => x9 (ix2 r k)) (fun r k => x10 (ix2 r k)) := by
  rw [val_main_v44_apply, val_main_v22_apply, val_main_v7_apply, val_main_v1_apply, val_main_v0_apply,
    val_main_v6_apply, val_main_v5_apply, val_main_v21_apply, val_main_v20_apply, val_main_v43_apply,
    val_main_v42_apply, Ideal.addf_def, Ideal.addf_def, Ideal.addf_def]
  unfold refY
  have hb := b.isLt
  have ho := o.isLt
  refine congrArg₂ (· + ·) (congrArg₂ (· + ·) (congrArg₂ (· + ·) ?_ ?_) ?_) ?_
  · exact congrArg x1 (by ix_ext1)
  · refine Finset.sum_congr rfl fun r _ => ?_
    have e1 : lidx_main_v5 (idx_main_v6 (ix2 b o)) r = ix2 o r := by ix_ext2
    have e2 : ridx_main_v5 (idx_main_v6 (ix2 b o)) r = ix2 r b := by ix_ext2
    rw [e1, e2, t0_at]
  · refine Finset.sum_congr rfl fun r _ => ?_
    have e1 : lidx_main_v20 (idx_main_v21 (ix2 b o)) r = ix2 o r := by ix_ext2
    have e2 : ridx_main_v20 (idx_main_v21 (ix2 b o)) r = ix2 r b := by ix_ext2
    rw [e1, e2, t1_at]
  · refine Finset.sum_congr rfl fun r _ => ?_
    have e1 : lidx_main_v42 (idx_main_v43 (ix2 b o)) r = ix2 o r := by ix_ext2
    have e2 : ridx_main_v42 (idx_main_v43 (ix2 b o)) r = ix2 r b := by ix_ext2
    rw [e1, e2, t2_at]

end Cert.ReferenceIdeal.Coord

end
-- ==== Proof.Entry.lean ====
/-
  One entry of the result, on arrays whose entries are all real: the kernel's grouping and the reference's grouping
  of the same row, column and factors are the same extended real. The real values are chosen entry by entry and the
  identity over the reals is carried through the coercion.
-/
import proofs.«151261_j26113401160148_2_alg».proof.Proof.Spec
import Idealize.ShloMosaic.PureOps.Ideal
import Idealize.ShloMosaic.Lib.ValueIdx

noncomputable section

namespace Cert.Entry

open Idealize.ShloMosaic Idealize.ShloMosaic.ValueIdx Cert.Spec

abbrev A0 : Shape := ⟨2, ![4096, 1024]⟩
abbrev A1 : Shape := ⟨1, ![1024]⟩
abbrev AO : Shape := ⟨2, ![1024, 32]⟩
abbrev AI1 : Shape := ⟨3, ![1, 32, 1024]⟩
abbrev AI2 : Shape := ⟨3, ![2, 32, 1024]⟩
abbrev AI3 : Shape := ⟨3, ![3, 32, 1024]⟩
abbrev AG0 : Shape := ⟨2, ![32, 32]⟩
abbrev AG1 : Shape := ⟨2, ![32, 1024]⟩
abbrev AG2 : Shape := ⟨2, ![32, 32768]⟩

/-- The kernel's entry at row `b`, column `o`, of the eleven argument arrays. -/
def kerAt (μ0 : A0.Idx → EReal) (μ1 : A1.Idx → EReal) (μ2 μ3 μ4 : AO.Idx → EReal) (μ5 : AI1.Idx → EReal)
    (μ6 : AI2.Idx → EReal) (μ7 : AI3.Idx → EReal) (μ8 : AG0.Idx → EReal) (μ9 : AG1.Idx → EReal) (μ10 : AG2.Idx → EReal)
    (b : Fin 4096) (o : Fin 1024) : EReal :=
  kerY (fun k => μ0 (ix2 b k)) (μ1 (ix1 o)) (fun r => μ2 (ix2 o r)) (fun r => μ3 (ix2 o r)) (fun r => μ4 (ix2 o r))
    (fun a k => μ5 (ix3 (⟨0, by omega⟩ : Fin 1) a k))
    (fun a k => μ6 (ix3 (⟨0, by omega⟩ : Fin 2) a k)) (fun a k => μ6 (ix3 (⟨1, by omega⟩ : Fin 2) a k))
    (fun a k => μ7 (ix3 (⟨0, by omega⟩ : Fin 3) a k)) (fun a k => μ7 (ix3 (⟨1, by omega⟩ : Fin 3) a k))
    (fun a k => μ7 (ix3 (⟨2, by omega⟩ : Fin 3) a k))
    (fun r a => μ8 (ix2 r a)) (fun r k => μ9 (ix2 r k)) (fun r k => μ10 (ix2 r k))

/-- The reference's entry at row `b`, column `o`, of the eleven argument arrays. -/
def refAt (μ0 : A0.Idx → EReal) (μ1 : A1.Idx → EReal) (μ2 μ3 μ4 : AO.Idx → EReal) (μ5 : AI1.Idx → EReal)
    (μ6 : AI2.Idx → EReal) (μ7 : AI3.Idx → EReal) (μ8 : AG0.Idx → EReal) (μ9 : AG1.Idx → EReal) (μ10 : AG2.Idx → EReal)
    (b : Fin 4096) (o : Fin 1024) : EReal :=
  refY (fun k => μ0 (ix2 b k)) (μ1 (ix1 o)) (fun r => μ2 (ix2 o r)) (fun r => μ3 (ix2 o r)) (fun r => μ4 (ix2 o r))
    (fun a k => μ5 (ix3 (⟨0, by omega⟩ : Fin 1) a k))
    (fun a k => μ6 (ix3 (⟨0, by omega⟩ : Fin 2) a k)) (fun a k => μ6 (ix3 (⟨1, by omega⟩ : Fin 2) a k))
    (fun a k => μ7 (ix3 (⟨0, by omega⟩ : Fin 3) a k)) (fun a k => μ7 (ix3 (⟨1, by omega⟩ : Fin 3) a k))
    (fun a k => μ7 (ix3 (⟨2, by omega⟩ : Fin 3) a k))
    (fun r a => μ8 (ix2 r a)) (fun r k => μ9 (ix2 r k)) (fun r k => μ10 (ix2 r k))

/-- On arrays of real entries the two entries agree. -/
theorem kerAt_eq_refAt (μ0 : A0.Idx → EReal) (μ1 : A1.Idx → EReal) (μ2 μ3 μ4 : AO.Idx → EReal) (μ5 : AI1.Idx → EReal)
    (μ6 : AI2.Idx → EReal) (μ7 : AI3.Idx → EReal) (μ8 : AG0.Idx → EReal) (μ9 : AG1.Idx → EReal) (μ10 : AG2.Idx → EReal)
    (h0 : ∀ i, ∃ r : ℝ, μ0 i = r) (h1 : ∀ i, ∃ r : ℝ, μ1 i = r) (h2 : ∀ i, ∃ r : ℝ, μ2 i = r)
    (h3 : ∀ i, ∃ r : ℝ, μ3 i = r) (h4 : ∀ i, ∃ r : ℝ, μ4 i = r) (h5 : ∀ i, ∃ r : ℝ, μ5 i = r)
    (h6 : ∀ i, ∃ r : ℝ, μ6 i = r) (h7 : ∀ i, ∃ r : ℝ, μ7 i = r) (h8 : ∀ i, ∃ r : ℝ, μ8 i = r)
    (h9 : ∀ i, ∃ r : ℝ, μ9 i = r) (h10 : ∀ i, ∃ r : ℝ, μ10 i = r) (b : Fin 4096) (o : Fin 1024) :
    kerAt μ0 μ1 μ2 μ3 μ4 μ5 μ6 μ7 μ8 μ9 μ10 b o = refAt μ0 μ1 μ2 μ3 μ4 μ5 μ6 μ7 μ8 μ9 μ10 b o := by
  choose f0 e0 using h0
  choose f1 e1 using h1
  choose f2 e2 using h2
  choose f3 e3 using h3
  choose f4 e4 using h4
  choose f5 e5 using h5
  choose f6 e6 using h6
  choose f7 e7 using h7
  choose f8 e8 using h8
  choose f9 e9 using h9
  choose f10 e10 using h10
  unfold kerAt refAt
  simp only [e0, e1, e2, e3, e4, e5, e6, e7, e8, e9, e10]
  exact kerY_eq_refY_coe (fun k => f0 (ix2 b k)) (f1 (ix1 o)) (fun r => f2 (ix2 o r)) (fun r => f3 (ix2 o r))
    (fun r => f4 (ix2 o r)) (fun a k => f5 (ix3 (⟨0, by omega⟩ : Fin 1) a k))
    (fun a k => f6 (ix3 (⟨0, by omega⟩ : Fin 2) a k)) (fun a k => f6 (ix3 (⟨1, by omega⟩ : Fin 2) a k))
    (fun a k => f7 (ix3 (⟨0, by omega⟩ : Fin 3) a k)) (fun a k => f7 (ix3 (⟨1, by omega⟩ : Fin 3) a k))
    (fun a k => f7 (ix3 (⟨2, by omega⟩ : Fin 3) a k))
    (fun r a => f8 (ix2 r a)) (fun r k => f9 (ix2 r k)) (fun r k => f10 (ix2 r k))

end Cert.Entry

end
-- ==== Proof.Finite.lean ====
/-
  Every entry of every input array is a real number. The precondition is the conjunction, over the eleven arrays,
  of "all entries have absolute value below +inf"; an extended real whose absolute value is below +inf is neither
  infinity, so it is the coercion of a real.
-/
import proofs.«151261_j26113401160148_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The shape with no axes has one index. -/
instance : Subsingleton S_.Idx := ⟨fun a b => funext fun d => d.elim0⟩

/-- The word the arrays are compared against denotes +inf. -/
theorem top_word : Ideal.ofBits .f32 0x7F800000#32 = (⊤ : EReal) := by
  simp [Ideal.ofBits, Ideal.ieee]

/-- An extended real with `|x| < +inf` is a real number. -/
theorem real_of_abs_lt_top (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- One entry of the comparison array being 1 says that entry of the operand is real. -/
theorem entry_real {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = r := by
  refine real_of_abs_lt_top (x i) ?_
  rw [← top_word]
  exact h

variable [Facts]

/-- The precondition, at the exact instance, makes every entry of every argument array real. -/
theorem all_real (a0 : FVec Ideal S4096x1024 .f32) (a1 : FVec Ideal S1024 .f32) (a2 a3 a4 : FVec Ideal S1024x32 .f32)
    (a5 : FVec Ideal S1x32x1024 .f32) (a6 : FVec Ideal S2x32x1024 .f32) (a7 : FVec Ideal S3x32x1024 .f32)
    (a8 : FVec Ideal S32x32 .f32) (a9 : FVec Ideal S32x1024 .f32) (a10 : FVec Ideal S32x32768 .f32)
    (h : fn (F := Ideal) a0 a1 a2 a3 a4 a5 a6 a7 a8 a9 a10 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r)
      ∧ (∀ i, ∃ r : ℝ, a8 i = r) ∧ (∀ i, ∃ r : ℝ, a9 i = r) ∧ (∀ i, ∃ r : ℝ, a10 i = r) := by
  have h0 := congrFun h ValueIdx.ix0
  dsimp only [fn, fn_part1, fn_part2, fn_part3] at h0
  simp only [Idealize.ShloMosaic.andi, IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨fun i => entry_real a0 _ i (Host.reduce_andi_all _ _ _ _ _ e0 i),
    fun i => entry_real a1 _ i (Host.reduce_andi_all _ _ _ _ _ e1 i),
    fun i => entry_real a2 _ i (Host.reduce_andi_all _ _ _ _ _ e2 i),
    fun i => entry_real a3 _ i (Host.reduce_andi_all _ _ _ _ _ e3 i),
    fun i => entry_real a4 _ i (Host.reduce_andi_all _ _ _ _ _ e4 i),
    fun i => entry_real a5 _ i (Host.reduce_andi_all _ _ _ _ _ e5 i),
    fun i => entry_real a6 _ i (Host.reduce_andi_all _ _ _ _ _ e6 i),
    fun i => entry_real a7 _ i (Host.reduce_andi_all _ _ _ _ _ e7 i),
    fun i => entry_real a8 _ i (Host.reduce_andi_all _ _ _ _ _ e8 i),
    fun i => entry_real a9 _ i (Host.reduce_andi_all _ _ _ _ _ e9 i),
    fun i => entry_real a10 _ i (Host.reduce_andi_all _ _ _ _ _ e10 i)⟩

end Cert.Finite

end
-- ==== Proof.Algebraic.lean ====
/-
  The two idealized programs end with the same result array. Entry by entry: the kernel's output block at a grid
  point is its body's arithmetic of that point's 256 rows of the input matrix and of the stacked factor, core and
  output arrays, which the host prefix lays out from the argument arrays; read at a row and a column this is the
  kernel's grouping of the truncated Tucker expansion. The reference's composed term read at the same row and column
  is the reference's grouping. On arrays of real entries — which the precondition provides — the two groupings are
  one number.
-/
import proofs.«151261_j26113401160148_2_alg».proof.Defs
import proofs.«151261_j26113401160148_2_alg».proof.Proof.Blocks
import proofs.«151261_j26113401160148_2_alg».proof.Proof.HostArrays
import proofs.«151261_j26113401160148_2_alg».proof.Proof.KernelSpec
import proofs.«151261_j26113401160148_2_alg».proof.Proof.RefStages
import proofs.«151261_j26113401160148_2_alg».proof.Proof.Entry
import proofs.«151261_j26113401160148_2_alg».proof.Proof.Finite
import proofs.«151261_j26113401160148_2_alg».proof.Proof.Gen.Pre_finite_inputs

noncomputable section

namespace Cert.Proof.Alg

open Idealize.ShloMosaic Idealize.ShloMosaic.ValueIdx Idealize.ShloMosaic.TcCoe Idealize.SL.Sem

section Kernel

open Cert.KernelIdeal Cert.KernelIdeal.Gen Cert.KernelIdeal.Fr Cert.KernelIdeal.Host Cert.KernelIdeal.At Cert.KernelIdeal.Blk

variable (m : (ℓ : Loc nD τ sig) → Buf (Elt Ideal) ℓ) (c : Dev nD)

/-- The kernel's result at row `b`, column `o`: the body's arithmetic at the block holding row `b`, with the
    staged arrays read back to the arguments, is the kernel's grouping of the expansion. -/
theorem kernel_at (b : Fin 4096) (o : Fin 1024) :
    Gk m c (ix2 b o) = Cert.Entry.kerAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b o := by
  have hb := b.isLt
  unfold Cert.Entry.kerAt
  exact pay_spec (Xblk (V m c main_arg0) ⟨b.val / 256, by omega⟩) (V m c main_v0) (V m c main_v13) (V m c main_v15)
    (V m c main_v16) (V m c main_v17) (V m c main_v19)
    (fun k => (m ((c : Thread nD τ).loc main_arg0)) (ix2 b k)) ((m ((c : Thread nD τ).loc main_arg1)) (ix1 o)) (fun r => (m ((c : Thread nD τ).loc main_arg2)) (ix2 o r)) (fun r => (m ((c : Thread nD τ).loc main_arg3)) (ix2 o r))
    (fun r => (m ((c : Thread nD τ).loc main_arg4)) (ix2 o r))
    (fun a k => (m ((c : Thread nD τ).loc main_arg5)) (ix3 (⟨0, by omega⟩ : Fin 1) a k))
    (fun a k => (m ((c : Thread nD τ).loc main_arg6)) (ix3 (⟨0, by omega⟩ : Fin 2) a k)) (fun a k => (m ((c : Thread nD τ).loc main_arg6)) (ix3 (⟨1, by omega⟩ : Fin 2) a k))
    (fun a k => (m ((c : Thread nD τ).loc main_arg7)) (ix3 (⟨0, by omega⟩ : Fin 3) a k)) (fun a k => (m ((c : Thread nD τ).loc main_arg7)) (ix3 (⟨1, by omega⟩ : Fin 3) a k))
    (fun a k => (m ((c : Thread nD τ).loc main_arg7)) (ix3 (⟨2, by omega⟩ : Fin 3) a k))
    (fun r a => (m ((c : Thread nD τ).loc main_arg8)) (ix2 r a)) (fun r k => (m ((c : Thread nD τ).loc main_arg9)) (ix2 r k)) (fun r k => (m ((c : Thread nD τ).loc main_arg10)) (ix2 r k))
    ⟨b.val % 256, by omega⟩ o
    (fun i => by
      refine Eq.trans ?_ (congrFun (V_main_arg0 m c) (ix2 b i))
      unfold Xblk
      exact congrArg (V m c main_arg0) (by ix_ext2))
    (v0_at m c 0 o)
    (v13_at0 m c) (v13_at1 m c) (v13_at2 m c) (v13_at3 m c) (v13_at4 m c) (v13_at5 m c)
    (v15_at0 m c o) (v15_at1 m c o) (v15_at2 m c o)
    (v16_at m c) (v17_at m c) (v19_at m c)

end Kernel

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs run, from memories agreeing on the arguments, to the same result array. -/
theorem algebraic : Cert.algebraic_KernelIdeal_ReferenceIdeal := by
  intro m ρ m' ρ' hpre hagree
  refine ⟨fun c => Cert.KernelIdeal.Blk.Gk m c, Cert.KernelIdeal.Blk.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq]
  obtain ⟨g0, g1, g2, g3, g4, g5, g6, g7, g8, g9, g10⟩ := hagree c
  rw [g0, g1, g2, g3, g4, g5, g6, g7, g8, g9, g10]
  funext i
  obtain ⟨b, o, rfl⟩ : ∃ (b : Fin 4096) (o : Fin 1024), i = ix2 b o := ⟨i 0, i 1, eq_ix2 i⟩
  obtain ⟨f0, f1, f2, f3, f4, f5, f6, f7, f8, f9, f10⟩ := Cert.Finite.all_real _ _ _ _ _ _ _ _ _ _ _ (hpre c)
  refine (Cert.ReferenceIdeal.Coord.y_at _ _ _ _ _ _ _ _ _ _ _ b o).trans ?_
  refine Eq.trans ?_ (kernel_at m c b o).symm
  exact (Cert.Entry.kerAt_eq_refAt _ _ _ _ _ _ _ _ _ _ _ f0 f1 f2 f3 f4 f5 f6 f7 f8 f9 f10 b o).symm

end Cert.Proof.Alg

end
-- ==== Proof.lean ====
/-
  The certificate of a fused Tucker–Taylor forward pass against its reference: a truncated expansion of order three,
  each order a projection of the input row, an outer product of projections, a contraction with a core matrix and a
  contraction with an output factor, added to a constant row.

  The kernel stacks the six projection factors into one matrix and the three output factors into another on the host,
  computes all projections of a block of 256 rows in one matrix product, contracts the order-2 core mode by mode, and
  adds the three orders in one product of width 96; the reference forms the flattened outer products and adds the
  orders one after the other. At the exact extended reals the two are the same function of the arguments wherever the
  arguments are real, which the precondition states.

  The frames of the two printed kernels come from the launch of the one region over its sixteen grid points; the
  reference's frame is its run with the result dropped; the idealization rewrote nothing, so there is nothing to
  preserve beyond the program's own text.
-/
import proofs.«151261_j26113401160148_2_alg».proof.Defs
import proofs.«151261_j26113401160148_2_alg».proof.Proof.Gen.Kernel
import proofs.«151261_j26113401160148_2_alg».proof.Proof.Gen.Kernel.Skeleton
import proofs.«151261_j26113401160148_2_alg».proof.Proof.Gen.Kernel.Launch
import proofs.«151261_j26113401160148_2_alg».proof.Proof.Gen.Kernel.Points
import proofs.«151261_j26113401160148_2_alg».proof.Proof.Gen.KernelIdeal
import proofs.«151261_j26113401160148_2_alg».proof.Proof.Gen.KernelIdeal.Skeleton
import proofs.«151261_j26113401160148_2_alg».proof.Proof.Gen.KernelIdeal.Launch
import proofs.«151261_j26113401160148_2_alg».proof.Proof.Gen.KernelIdeal.Points
import proofs.«151261_j26113401160148_2_alg».proof.Proof.Gen.ReferenceIdeal
import proofs.«151261_j26113401160148_2_alg».proof.Proof.Gen.Pre_finite_inputs
import proofs.«151261_j26113401160148_2_alg».proof.Proof.Gen.ReferenceIdeal.Run
import proofs.«151261_j26113401160148_2_alg».proof.Proof.Gen.ReferenceIdeal.Read
import proofs.«151261_j26113401160148_2_alg».proof.Proof.FrameBits
import proofs.«151261_j26113401160148_2_alg».proof.Proof.FrameIdeal
import proofs.«151261_j26113401160148_2_alg».proof.Proof.Algebraic
import Idealize.ShloMosaic.Adequacy
import Idealize.ShloMosaic.Init

noncomputable section

namespace Cert.Proof

open Idealize.ShloMosaic Idealize.SL.Sem

/-- The word-level kernel runs to the end, faults nowhere and leaves its arguments as they were. -/
theorem frame_kernel : Cert.frame_Kernel := fun m ρ _ => Cert.Kernel.Fr.frame m ρ

/-- So does the idealized kernel. -/
theorem frame_kernelIdeal : Cert.frame_KernelIdeal := fun m ρ _ => Cert.KernelIdeal.Fr.frame m ρ

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.Alg.frame_ri, trivial, Cert.Proof.Alg.algebraic⟩

end Cert.Proof

end
